-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S512 : Shape := ⟨1, ![512]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel

variable [Facts]

def fn {F : FTy → Type} [FloatOps F] (main_arg0 : FVec F S512x768 .f32) (main_arg1 : IVec S512 32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  main_v3
-- ==== Kernel.lean ====
abbrev S512x768 : Shape := ⟨2, ![512, 768]⟩
abbrev S512 : Shape := ⟨1, ![512]⟩
abbrev S_ : Shape := ⟨0, ![]⟩
abbrev S512x1 : Shape := ⟨2, ![512, 1]⟩
abbrev S512x512 : Shape := ⟨2, ![512, 512]⟩
abbrev S128x768 : Shape := ⟨2, ![128, 768]⟩
abbrev S128x128 : Shape := ⟨2, ![128, 128]⟩
abbrev S1x512 : Shape := ⟨2, ![1, 512]⟩
abbrev S8x1x128 : Shape := ⟨3, ![8, 1, 128]⟩
abbrev S64x128 : Shape := ⟨2, ![64, 128]⟩
abbrev S1x1x128 : Shape := ⟨3, ![1, 1, 128]⟩
abbrev S64x128x1 : Shape := ⟨3, ![64, 128, 1]⟩
abbrev S64x1x128 : Shape := ⟨3, ![64, 1, 128]⟩
abbrev S64x128x128 : Shape := ⟨3, ![64, 128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x1x1 : Shape := ⟨3, ![8, 1, 1]⟩
abbrev S8 : Shape := ⟨1, ![8]⟩

abbrev nBuf : Space → Nat
  | .hbm => 52
  | .vmem => 14
  | .smem => 0
  | _ => 0

abbrev bufTy : (tb : Table) → Fin (tcTables nBuf tb) → BufTy
  | .hbm, ⟨0, _⟩ => ⟨S512x768, .f32⟩
  | .hbm, ⟨1, _⟩ => ⟨S512, .i32⟩
  | .hbm, ⟨2, _⟩ => ⟨S512x768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x768, .f32⟩
  | .hbm, ⟨11, _⟩ => ⟨S512x768, .f32⟩
  | .hbm, ⟨12, _⟩ => ⟨S512x768, .bf16⟩
  | .hbm, ⟨13, _⟩ => ⟨S512x512, .f32⟩
  | .hbm, ⟨14, _⟩ => ⟨S512x1, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S8x1x128, .f32⟩
  | .hbm, ⟨40, _⟩ => ⟨S8x1x128, .f32⟩
  | .hbm, ⟨41, _⟩ => ⟨S8x1x1, .f32⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S8x1x1, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S128x768, .bf16⟩
  | .local _ .vmem, ⟨1, _⟩ => ⟨S128x768, .bf16⟩
  | .local _ .vmem, ⟨2, _⟩ => ⟨S128x768, .bf16⟩
  | .local _ .vmem, ⟨3, _⟩ => ⟨S128x768, .bf16⟩
  | .local _ .vmem, ⟨4, _⟩ => ⟨S128x128, .f32⟩
  | .local _ .vmem, ⟨5, _⟩ => ⟨S128x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

class Facts₀ : Prop where
  reducesTo_S512x768_S512_d1 : S512x768.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x768_0_1 : S512x1.BroadcastsInDim S512x768 (![0, 1] : Fin 2 → Fin S512x768.rank)
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S128x128_S128x128_0_0 : ∀ a, (![0, 0] : Fin 2 → Nat) a + S128x128.size a ≤ S128x128.size a
  h_S128x128 : 0 < S128x128.numel
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  inb_S1x1x128_S1x1x128_0_0_0 : ∀ a, (![0, 0, 0] : Fin 3 → Nat) a + S1x1x128.size a ≤ S1x1x128.size a
  h_S1x1x128 : 0 < S1x1x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  natLt_1_32 : 1 < 32
  reduces_S64x128x128_S128x128 : S64x128x128.Reduces [0] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  shapeCasts_S1x1x128_S1x1x128 : S1x1x128.ShapeCasts S1x1x128
  inpos_S1x1_p0_0 : ∀ a, (![0, 0] : Fin 2 → Nat) a < S1x1.size a
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S128x768_S128x768_S128x128_1_1_0_0_n_n_wf : DotDims.WF S128x768 S128x768 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .bf16 = 32 ∨ (Rect.block (s := S512x768) S128x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S512x768.size a
  hwx0_1 : ∀ i : grid0.Coords, EltTy.bits .bf16 = 32 ∨ (Rect.block (s := S512x768) S128x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x512.size a
  hwx0_2 : ∀ i : grid0.Coords, EltTy.bits .f32 = 32 ∨ (Rect.block (s := S512x512) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S512x512.size a
  hwx1_0 : ∀ i : grid1.Coords, EltTy.bits .f32 = 32 ∨ (Rect.block (s := S512x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S512x512.size a
  hwx1_1 : ∀ i : grid1.Coords, EltTy.bits .f32 = 32 ∨ (Rect.block (s := S512x512) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S8x1x128.size a
  hwx1_2 : ∀ i : grid1.Coords, EltTy.bits .f32 = 32 ∨ (Rect.block (s := S8x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S8x1x128.size a
  hwx1_3 : ∀ i : grid1.Coords, EltTy.bits .f32 = 32 ∨ (Rect.block (s := S8x1x128) S1x1x128.size (cc1_transform_3 i) (hinb1_3 i)).WholeWords (EltTy.packing .f32)

variable [Facts₀]

def dot_S128x768_S128x768_S128x128_1_1_0_0_n_n : DotDims S128x768 S128x768 S128x128 where
  lhsContracting := [1]
  rhsContracting := [1]
  lhsNonContracting := [0]
  rhsNonContracting := [0]
  lhsBatch := []
  rhsBatch := []
  wf := dot_S128x768_S128x768_S128x128_1_1_0_0_n_n_wf

abbrev win0_0 : Pipeline.Window sig grid0 :=
  Pipeline.Window.ofSpec (Memref.whole main_v5) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S1x1x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24_1) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x768 : Shape := ⟨2, ![512, 768]⟩
abbrev S512 : Shape := ⟨1, ![512]⟩
abbrev S_ : Shape := ⟨0, ![]⟩
abbrev S512x1 : Shape := ⟨2, ![512, 1]⟩
abbrev S768x512 : Shape := ⟨2, ![768, 512]⟩
abbrev S512x512 : Shape := ⟨2, ![512, 512]⟩
abbrev S512x512x1 : Shape := ⟨3, ![512, 512, 1]⟩
abbrev S512x1x512 : Shape := ⟨3, ![512, 1, 512]⟩
abbrev S512x512x512 : Shape := ⟨3, ![512, 512, 512]⟩
abbrev S1x512x512 : Shape := ⟨3, ![1, 512, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512, .i32⟩
  | .hbm, ⟨2, _⟩ => ⟨S512x768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x768, .f32⟩
  | .hbm, ⟨11, _⟩ => ⟨S512x768, .f32⟩
  | .hbm, ⟨12, _⟩ => ⟨S768x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512x1, .f32⟩
  | .hbm, ⟨18, _⟩ => ⟨S512x1x512, .f32⟩
  | .hbm, ⟨19, _⟩ => ⟨S512x512x512, .f32⟩
  | .hbm, ⟨20, _⟩ => ⟨S512x512x512, .f32⟩
  | .hbm, ⟨21, _⟩ => ⟨S512x512x512, .f32⟩
  | .hbm, ⟨22, _⟩ => ⟨S_, .f32⟩
  | .hbm, ⟨23, _⟩ => ⟨S512x512x512, .f32⟩
  | .hbm, ⟨24, _⟩ => ⟨S512x512x512, .f32⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .i1⟩
  | .hbm, ⟨32, _⟩ => ⟨S512x512x1, .i1⟩
  | .hbm, ⟨33, _⟩ => ⟨S512x1x512, .i1⟩
  | .hbm, ⟨34, _⟩ => ⟨S512x512x512, .i1⟩
  | .hbm, ⟨35, _⟩ => ⟨S512x512x512, .i1⟩
  | .hbm, ⟨36, _⟩ => ⟨S512x512x512, .i1⟩
  | .hbm, ⟨37, _⟩ => ⟨S1x512x512, .i1⟩
  | .hbm, ⟨38, _⟩ => ⟨S512x512x512, .i1⟩
  | .hbm, ⟨39, _⟩ => ⟨S512x512x512, .i1⟩
  | .hbm, ⟨40, _⟩ => ⟨S1x512, .i32⟩
  | .hbm, ⟨41, _⟩ => ⟨S512x1, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S512x512x1, .i1⟩
  | .hbm, ⟨46, _⟩ => ⟨S512x1x512, .i1⟩
  | .hbm, ⟨47, _⟩ => ⟨S512x1x512, .i1⟩
  | .hbm, ⟨48, _⟩ => ⟨S512x512x512, .i1⟩
  | .hbm, ⟨49, _⟩ => ⟨S512x512x512, .i1⟩
  | .hbm, ⟨50, _⟩ => ⟨S512x512x512, .i1⟩
  | .hbm, ⟨51, _⟩ => ⟨S512x512x512, .i1⟩
  | .hbm, ⟨52, _⟩ => ⟨S512x512x512, .f32⟩
  | .hbm, ⟨53, _⟩ => ⟨S512x512x512, .f32⟩
  | .hbm, ⟨54, _⟩ => ⟨S_, .f32⟩
  | .hbm, ⟨55, _⟩ => ⟨S512x512x512, .f32⟩
  | .hbm, ⟨56, _⟩ => ⟨S512x512x512, .f32⟩
  | .hbm, ⟨57, _⟩ => ⟨S_, .f32⟩
  | .hbm, ⟨58, _⟩ => ⟨S512x512x512, .f32⟩
  | .hbm, ⟨59, _⟩ => ⟨S512x512x512, .i1⟩
  | .hbm, ⟨60, _⟩ => ⟨S512x512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call1_cst : Ref sig .tc := ⟨.hbm, 54, rfl⟩
abbrev main_call1_v0 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  reducesTo_S512x768_S512_d1 : S512x768.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x768_0_1 : S512x1.BroadcastsInDim S512x768 (![0, 1] : Fin 2 → Fin S512x768.rank)
  transposes_S512x768_S768x512_1_0 : S512x768.Transposes [1, 0] S768x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  reducesTo_S512x512x512_S_d0_1_2 : S512x512x512.ReducesTo [0, 1, 2] S_
  dot_S512x768_S768x512_S512x512_1_0_0_1_n_n_wf : DotDims.WF S512x768 S768x512 S512x512 [1] [0] [0] [1] [] []

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

class Facts : Prop extends Facts₀ where

variable [Facts]
-- ==== Proof.R0BodyK.lean ====
/-
  The first kernel region (the distance blocks), at the buffer contents `V` the region is entered from.

  The grid has 4 × 4 points; at point (i, j) the body loads rows block i and rows block j of the normalised
  matrix (two windows onto ONE array, each a 128 × 768 block), multiplies the first by the transpose of the second
  and stores one minus the product into the 128 × 128 output block (i, j). Nothing is kept between points. Stated
  here: each window's block at a point, what the output's buffer holds after the body (its single store, which
  covers the buffer), the body's triple, and the proof data of the pipeline. The two input windows read the same
  array, so the proof data hold it at the two halves of the full share, one half per window.
-/
import proofs.«118121_j17016660426841_2_alg».proof.Proof.Gen.Kernel.Launch
import proofs.«118121_j17016660426841_2_alg».proof.Proof.Gen.Kernel.Skeleton
import proofs.«118121_j17016660426841_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output's buffer -/

abbrev rIn0 : Rect S128x768 := Rect.unit (s := S128x768) ![0, 0] S128x768.size inb_S128x768_S128x768_0_0
abbrev rOut0 : Rect S128x128 := Rect.unit (s := S128x128) ![0, 0] S128x128.size inb_S128x128_S128x128_0_0

/-- The output block after the body: its one store, of one minus the product of the two loaded blocks. -/
def out0_2 (x0 x1 : Vec F S128x768 .bf16) : Vec F S128x128 .f32 :=
  View.canon [⟨rOut0, k0_pay1 (View.ld x0 rIn0) (View.ld x1 rIn0)⟩]

/-- The store covers the buffer. -/
theorem cover0_2 (p0 : Vec F S128x128 .f32) (y : S128x128.Idx) :
    ∃ pc ∈ ([⟨rOut0, p0⟩] : List (View.Piece (Elt F) S128x128 .f32)), y ∈ pc.1.set :=
  View.cover_of_tiled [⟨rOut0, p0⟩] S128x128.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg2 : Memref sig .tc .vmem S128x768 .bf16) (harg2 : arg2.IsWhole)
    (arg3 : Memref sig .tc .vmem S128x768 .bf16) (harg3 : arg3.IsWhole) (arg4 : Memref sig .tc .vmem S128x128 .f32) (harg4 : arg4.IsWhole)
    (x0 x1 : Vec F S128x768 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__cos_kernel i arg2 harg2 arg3 harg3 arg4 harg4) K := by
  simp only [cc0__cos_kernel_eq_skeleton]; unfold cc0__cos_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body each input's
    buffer at its block and the output's at `out0_2` of the two input blocks; the class's invariant; nothing owed;
    the shared input array held half by each of its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.Arr0K.lean ====
/-
  The first region's arrays against the buffers behind them. Its two input windows read one array, so entering the
  region the array's points-to is split in two halves, one per window, and leaving it the halves are joined again; the
  output window's array is a buffer of its own.
-/
import proofs.«118121_j17016660426841_2_alg».proof.Proof.R0BodyK
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three windows are two. -/
theorem img0 : Finset.univ.image (Pipeline.arrRef spec0) = {main_v5, main_v6} := by decide

/-- Window by window: the array's points-to as the proof data hold it, any contents `G`. -/
theorem arr0_0 (c : Dev nD) (G : Buf (Elt F) ((cfg0.win 0).arr.view.loc (c : Thread nD τ))) :
    (View.loc (c : Thread nD τ) (cfg0.win 0).arr.view ↦[(cfg0.win 0).arr.view.set]{(dat0 V c).share 0} G : sProp 𝕄)
      = ((c : Thread nD τ).loc main_v5 ↦{fullShare.left} G) := by
  rw [(arr_whole0 0).set_eq_univ]; rfl
theorem arr0_1 (c : Dev nD) (G : Buf (Elt F) ((cfg0.win 1).arr.view.loc (c : Thread nD τ))) :
    (View.loc (c : Thread nD τ) (cfg0.win 1).arr.view ↦[(cfg0.win 1).arr.view.set]{(dat0 V c).share 1} G : sProp 𝕄)
      = ((c : Thread nD τ).loc main_v5 ↦{fullShare.right} G) := by
  rw [(arr_whole0 1).set_eq_univ]; rfl
theorem arr0_2 (c : Dev nD) (G : Buf (Elt F) ((cfg0.win 2).arr.view.loc (c : Thread nD τ))) :
    (View.loc (c : Thread nD τ) (cfg0.win 2).arr.view ↦[(cfg0.win 2).arr.view.set]{(dat0 V c).share 2} G : sProp 𝕄)
      = ((c : Thread nD τ).loc main_v6 ↦{fullShare} G) := by
  rw [(arr_whole0 2).set_eq_univ]; rfl

/-- ENTRY: the two buffers, whole, make the three windows' arrays at the contents the region finds. -/
theorem split0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [img0, bigSep_insert (by decide), bigSep_singleton, bigSep_W0, arr0_0, arr0_1, arr0_2]
  show iprop(((c : Thread nD τ).loc main_v5 ↦{fullShare} V c main_v5) ∗ ((c : Thread nD τ).loc main_v6 ↦{fullShare} V c main_v6)) ⊢ _
  iintro ⟨H5, H6⟩
  ihave H := (pointsTo_share (PosShare.mem_left_op_right fullShare)).1 $$ H5
  icases H with ⟨Ha, Hb⟩
  isplitl [Ha]; · iexact Ha
  isplitl [Hb]; · iexact Hb
  iexact H6

/-- EXIT: the three windows' arrays, the two inputs' at one contents `G5`, make the two buffers whole. -/
theorem join0 (c : Dev nD) (Fa : (w : Fin cfg0.W) → Buf (Elt F) ((cfg0.win w).arr.view.loc (c : Thread nD τ)))
    (V' : (b : Ref sig .tc) → Buf (Elt F) ((c : Thread nD τ).loc b))
    (h0 : Fa 0 = V' main_v5) (h1 : Fa 1 = V' main_v5) (h2 : Fa 2 = V' main_v6) :
    (dat0 V c).arrays Fa ⊢ (Pipeline.arrBufs (Ix := Unit) (Name := ℕ) (U := UR sig nD τ) (Lvl := ℕ) spec0 c V' : sProp 𝕄) := by
  unfold Pipeline.arrBufs Dat.arrays
  rw [img0, bigSep_insert (by decide), bigSep_singleton, bigSep_W0, arr0_0, arr0_1, arr0_2, h0, h1, h2]
  show _ ⊢ iprop(((c : Thread nD τ).loc main_v5 ↦{fullShare} V' main_v5) ∗ ((c : Thread nD τ).loc main_v6 ↦{fullShare} V' main_v6))
  iintro ⟨Ha, Hb, H6⟩
  isplitl [Ha Hb]
  · iapply (pointsTo_share (PosShare.mem_left_op_right fullShare)).2
    isplitl [Ha]; · iexact Ha
    iexact Hb
  iexact H6

end Cert.Kernel.Gen

end
-- ==== Proof.RunCondK.lean ====
/-
  The program's run with every final buffer NAMED. @main is nine items: host lines, the first kernel region, host lines,
  the second region, host lines. Given, for each region, a record of its run entered from the buffer contents before
  it and left at the contents after it, every weakly fair execution terminates and every buffer that is not scoped to a
  region ends at the last item's contents `V9` — the arguments among them (unchanged) and the result.
-/
import proofs.«118121_j17016660426841_2_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, with the final contents of every unscoped buffer: the launch over the nine segments, the last thread state
    read against the final memory. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0, StableHlo.seq hostOps0_1, Prog.lift (.customCall (Pipeline.entry 0) ()),
          StableHlo.seq hostOps1, StableHlo.seq hostOps1_1, StableHlo.seq hostOps1_2, StableHlo.seq hostOps1_3,
          Prog.lift (.customCall (Pipeline.entry 1) ()), StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, hpre0 c, hpost0 c, .rfl, .rfl, .rfl, hpre1 c, hpost1 c, sep_mono .rfl (hE2 c)⟩)
    (hinit := ?_)
    (QY := fun c s => ∀ b ∈ Pipeline.ucRefs τ sig, s.mem (((c : Thread nD τ)).1, b) = V9 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last thread state
    unfold StableHlo.held
    iintro ⟨Hh, HSI⟩
    imodintro
    iapply (pointsTo_read_all (Pipeline.ucRefs τ sig) (fun b => (((c : Thread nD τ)).1, b)) (V9 m outs c) s')
    isplitl [Hh] <;> iassumption

end Cert.Kernel.Gen

end
-- ==== Proof.RunK.lean ====
/-
  The run of the whole program with the contents both kernel regions leave NAMED.

  The buffer contents between @main's items are a fold from the launch memory: the host lines' results, then what a
  region writes. The first region writes the distance matrix: its output array after its sixteen points. The second
  writes the two arrays of partial sums: its output arrays after its 128 points. Each region is entered from the
  contents before it and left at the contents after it; between them rides the core's generator register and the
  fact that the core owes nothing. The second region's proof data are a parameter here, with what the run needs of
  them: their arrays are the entry contents, full shares, the plain invariant, nothing owed, the body obligation.
-/
import proofs.«118121_j17016660426841_2_alg».proof.Proof.Arr0K
import proofs.«118121_j17016660426841_2_alg».proof.Proof.RunCondK
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L0 : GSem nD τ sig → Finset Unit := fun _ => ∅
abbrev lv0 : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## What the regions leave -/

/-- The contents the first region is entered from. -/
abbrev Vin0 : (c : Dev nD) → (b : Ref sig .tc) → Buf (Elt F) ((c : Thread nD τ).loc b) := fun c b => V2 m c b
/-- The distance matrix: the first region's output array after its last point. -/
def X0 (c : Dev nD) : Buf (Elt F) ((c : Thread nD τ).loc main_v6) := (dat0 (Vin0 m) c).arrAt 2 cfg0.N
/-- The regions' outputs, first stage: the distance matrix only. -/
def outsA : Outs (F := F) := fun _ r c => Function.update (V2 m c) main_v6 (X0 m c) r
theorem outsA_v6 (c : Dev nD) : outsA m 3 main_v6 c = X0 m c := by
  unfold outsA; exact Function.update_self _ _ _
/-- The contents the second region is entered from. -/
abbrev Vin1 : (c : Dev nD) → (b : Ref sig .tc) → Buf (Elt F) ((c : Thread nD τ).loc b) := fun c b => V7 m (outsA m) c b

section Second

variable (d1 : (c : Dev nD) → Dat τ (Elt F) Unit ℕ (UR sig nD τ) ℕ cfg1 c)

/-- The two arrays of partial sums: the second region's output arrays after its last point. -/
def Y2 (c : Dev nD) : Buf (Elt F) ((c : Thread nD τ).loc main_v24_0) := (d1 c).arrAt 2 cfg1.N
def Y3 (c : Dev nD) : Buf (Elt F) ((c : Thread nD τ).loc main_v24_1) := (d1 c).arrAt 3 cfg1.N
/-- The regions' outputs: the distance matrix and the partial sums. -/
def outsB : Outs (F := F) := fun _ r c =>
  Function.update (Function.update (V7 m (outsA m) c) main_v24_0 (Y2 d1 c)) main_v24_1 (Y3 d1 c) r

theorem outsB_v6 (c : Dev nD) : outsB m d1 3 main_v6 c = X0 m c := by
  unfold outsB
  rw [Function.update_of_ne (StableHlo.devRef_ne_of_ne (by decide) : (Proc.devRef .tc main_v6 : DevRef τ sig) ≠ Proc.devRef .tc main_v24_1),
    Function.update_of_ne (StableHlo.devRef_ne_of_ne (by decide) : (Proc.devRef .tc main_v6 : DevRef τ sig) ≠ Proc.devRef .tc main_v24_0)]
  exact (V7_of m (outsA m) c main_v6 (by decide)).trans <| (V6_of m (outsA m) c main_v6 (by decide)).trans <|
    (V5_of m (outsA m) c main_v6 (by decide)).trans <| (V4_of m (outsA m) c main_v6 (by decide)).trans <|
    (Function.update_self _ _ _).trans (outsA_v6 m c)
theorem outsB_v24_0 (c : Dev nD) : outsB m d1 8 main_v24_0 c = Y2 d1 c := by
  unfold outsB
  rw [Function.update_of_ne (StableHlo.devRef_ne_of_ne (by decide) : (Proc.devRef .tc main_v24_0 : DevRef τ sig) ≠ Proc.devRef .tc main_v24_1)]
  exact Function.update_self _ _ _
theorem outsB_v24_1 (c : Dev nD) : outsB m d1 8 main_v24_1 c = Y3 d1 c := by
  unfold outsB; exact Function.update_self _ _ _

/-- With all outputs named the contents after the first region are those of the first stage, -/
theorem V3_B (c : Dev nD) : V3 m (outsB m d1) c = V3 m (outsA m) c := by
  show Function.update (V2 m c) main_v6 (outsB m d1 3 main_v6 c) = Function.update (V2 m c) main_v6 (outsA m 3 main_v6 c)
  rw [outsB_v6, outsA_v6]
/-- and so are the contents the second region is entered from. -/
theorem V7_B (c : Dev nD) : V7 m (outsB m d1) c = V7 m (outsA m) c := by
  show StableHlo.after hostOps1_3 (StableHlo.after hostOps1_2 (StableHlo.after hostOps1_1 (StableHlo.after hostOps1 (V3 m (outsB m d1) c))))
    = StableHlo.after hostOps1_3 (StableHlo.after hostOps1_2 (StableHlo.after hostOps1_1 (StableHlo.after hostOps1 (V3 m (outsA m) c))))
  rw [V3_B]

/-- Both pipelines' proof data. -/
def mkPdats : (p : Fin 2) → (c : Dev nD) → Dat τ (Elt F) Unit ℕ (UR sig nD τ) ℕ (cfgs p) c
  | ⟨0, _⟩ => fun c => dat0 (Vin0 m) c
  | ⟨1, _⟩ => fun c => d1 c

set_option backward.isDefEq.respectTransparency.types false in
/-- THE FIRST REGION as a segment: entered from the contents `V2`, left at `V3`. Entering, the buffers behind its windows
    are split out of the unscoped buffers, the shared input array dealt in halves; leaving, they are put back. -/
def reg0 : Pipeline.RegionSeg (pcfgs (F := F)) adm (mkPdats m d1) () defs₀ Variants.none L0 lv0 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (V2 m c) ∗ Rr c)
  post c := iprop(StableHlo.held (c : Thread nD τ) (Pipeline.ucRefs τ sig) (V3 m (outsB m d1) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs (Ix := Unit) (Name := ℕ) (U := UR sig nD τ) (Lvl := ℕ) c (Vin0 m c) : sProp 𝕄)
        ⊢ iprop((dat0 (Vin0 m) c).arrays ((dat0 (Vin0 m) c).arrAt · 0) ∗ Pipeline.unscopedRest spec0 c (Vin0 m c)) := by
      rw [Pipeline.unscopedBufs_split₀ cfgs 0 winFacts₀0.arr_unscoped c (Vin0 m c)]
      exact sep_mono (split0 (Vin0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (mkPdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (mkPdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (Vin0 m) c).arrays ((dat0 (Vin0 m) c).arrAt · cfg0.N) ∗ Pipeline.unscopedRest spec0 c (Vin0 m c))
        ⊢ (unscopedBufs (Ix := Unit) (Name := ℕ) (U := UR sig nD τ) (Lvl := ℕ) c (fun b => V3 m (outsB m d1) c b) : sProp 𝕄) := by
      rw [Pipeline.unscopedBufs_split₀ cfgs 0 winFacts₀0.arr_unscoped c (fun b => V3 m (outsB m d1) c b)]
      refine sep_mono (join0 (Vin0 m) c _ _ ?_ ?_ ?_) (Entails.of_eq ?_)
      · exact ((dat0 (Vin0 m) c).arrAt_in 0 rfl _).trans ((A_eq0 (Vin0 m) c 0).trans (V3_of m (outsB m d1) c main_v5 (by decide)).symm)
      · exact ((dat0 (Vin0 m) c).arrAt_in 1 rfl _).trans ((A_eq0 (Vin0 m) c 1).trans (V3_of m (outsB m d1) c main_v5 (by decide)).symm)
      · show X0 m c = Function.update (V2 m c) main_v6 (outsB m d1 3 main_v6 c) main_v6
        rw [Function.update_self, outsB_v6]
      · unfold Pipeline.unscopedRest
        exact bigSep_congr fun b hb => by
          dsimp only
          rw [V3_of m (outsB m d1) c b (by
            intro hm
            refine (Finset.mem_sdiff.mp hb).2 (Finset.mem_image.mpr ⟨2, Finset.mem_univ _, ?_⟩)
            rw [List.mem_singleton] at hm; rw [hm])]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Second

section SecondRun

variable (d1 : (c : Dev nD) → Dat τ (Elt F) Unit ℕ (UR sig nD τ) ℕ cfg1 c)
  (hA1 : ∀ c w, (d1 c).A w = Vin1 m c (Pipeline.arrRef spec1 w))
  (hq1 : ∀ c w, (d1 c).q w = fullShare)
  (hΦ1 : ∀ c t, (d1 c).Φ t = Pipeline.ΦA spec1 c)
  (howed1 : ∀ c t, (d1 c).owed t = 0)
  (hrec1 : ∀ c t, (d1 c).recorded t = Set.univ)
  (hbody1 : ∀ c, BodyObligation (d1 c) (defs₀ (F := F)) Variants.none () Set.univ)

include hA1 in
/-- After the second region each of its arrays holds what the pipeline leaves: the inputs what they held, the two
    outputs the partial sums. -/
theorem hF1 (c : Dev nD) (w : Fin cfg1.W) : (d1 c).arrAt w cfg1.N = V8 m (outsB m d1) c (Pipeline.arrRef spec1 w) := by
  match w with
  | ⟨0, _⟩ =>
    refine ((d1 c).arrAt_in 0 rfl _).trans ((hA1 c 0).trans ?_)
    show V7 m (outsA m) c main_v21 = V8 m (outsB m d1) c main_v21
    rw [V8_of m (outsB m d1) c main_v21 (by decide), V7_B]
  | ⟨1, _⟩ =>
    refine ((d1 c).arrAt_in 1 rfl _).trans ((hA1 c 1).trans ?_)
    show V7 m (outsA m) c main_v23 = V8 m (outsB m d1) c main_v23
    rw [V8_of m (outsB m d1) c main_v23 (by decide), V7_B]
  | ⟨2, _⟩ =>
    show Y2 d1 c = Function.update (Function.update (V7 m (outsB m d1) c) main_v24_0 (outsB m d1 8 main_v24_0 c)) main_v24_1 (outsB m d1 8 main_v24_1 c) main_v24_0
    rw [Function.update_of_ne (StableHlo.devRef_ne_of_ne (by decide) : (Proc.devRef .tc main_v24_0 : DevRef τ sig) ≠ Proc.devRef .tc main_v24_1),
      Function.update_self, outsB_v24_0]
  | ⟨3, _⟩ =>
    show Y3 d1 c = Function.update (Function.update (V7 m (outsB m d1) c) main_v24_0 (outsB m d1 8 main_v24_0 c)) main_v24_1 (outsB m d1 8 main_v24_1 c) main_v24_1
    rw [Function.update_self, outsB_v24_1]

/-- Every other buffer holds what it held at the region's entry. -/
theorem hrest1 (c : Dev nD) : ∀ b, b ∉ Finset.univ.image (Pipeline.arrRef spec1) → V8 m (outsB m d1) c b = Vin1 m c b := fun b hb => by
  show V8 m (outsB m d1) c b = V7 m (outsA m) c b
  rw [← V7_B m d1 c]
  refine V8_of m (outsB m d1) c b fun hm => hb ?_
  rcases List.mem_cons.mp hm with h | h
  · exact Finset.mem_image.mpr ⟨2, Finset.mem_univ _, h ▸ rfl⟩
  · rw [List.mem_singleton] at h
    exact Finset.mem_image.mpr ⟨3, Finset.mem_univ _, h ▸ rfl⟩

set_option backward.isDefEq.respectTransparency.types false in
/-- THE SECOND REGION as a segment: entered from the contents `V7`, left at `V8`. Its four arrays are four buffers. -/
def reg1 : Pipeline.RegionSeg (pcfgs (F := F)) adm (mkPdats m d1) () defs₀ Variants.none L0 lv0 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ L0 lv0 1 fun c t => howed1 c t
  pre c := iprop(StableHlo.held (c : Thread nD τ) (Pipeline.ucRefs τ sig) (V7 m (outsB m d1) c) ∗ Rr c)
  post c := iprop(StableHlo.held (c : Thread nD τ) (Pipeline.ucRefs τ sig) (V8 m (outsB m d1) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_B]
    have hsplit := Pipeline.arrays_of_unscopedBufs (p := 1) (pcfgs (F := F)) adm (mkPdats m d1) launch1.win launch1.arr_whole c
      ((mkPdats m d1 1 c).share_full fun w => hq1 c w) (Vin1 m c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show ∀ t, (mkPdats m d1 1 c).owed t = 0 from fun t => howed1 c t]
      icases HO with ⟨%W, HO⟩; iexists W; isplitr; · ipureintro; exact fun x _ => Or.inl ((show (mkPdats m d1 1 c).recorded 0 = Set.univ from hrec1 c 0) ▸ Set.mem_univ x)
      iexact HO
    isplitl [Hp]; · iexact Hp
    iexact Hrest
  hin c := by
    rw [show (mkPdats m d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (mkPdats m d1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (mkPdats m d1) ((mkPdats m d1 1 c).share_full fun w => hq1 c w)
      (Vin1 m c) (fun b => V8 m (outsB m d1) c b) ((mkPdats m d1 1 c).arrAt · cfg1.N) (hF1 m d1 hA1 c) (hrest1 m d1 c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    simp only [show ∀ t, (mkPdats m d1 1 c).owed t = 0 from fun t => howed1 c t]
    icases HO with ⟨%W, -, HO⟩; iexists W; iexact HO

include hA1 hq1 hΦ1 howed1 hrec1 hbody1 in
set_option backward.isDefEq.respectTransparency.types false in
/-- THE RUN: every weakly fair execution of @main terminates, and every unscoped buffer ends at the last contents
    `V9`, the regions' outputs being the distance matrix and the partial sums. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V9 m (outsB m d1) c b) :=
  run_cond m emb₁ () Variants.none L0 lv0 (fun _ _ => rfl) ρ (outsB m d1) (mkPdats m d1) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hE : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
          ⊢ bigSep Finset.univ fun c : Dev nD => Rr c := bigSep_mono fun c _ => hE c
      iintro ⟨H, -⟩
      imodintro
      iapply hmono
      iexact H)
    (fun c => by iintro ⟨-, H⟩; iexact H)
    (reg0 m d1) (fun _ => .rfl) (fun _ => .rfl)
    (reg1 m d1 hA1 hq1 hΦ1 howed1 hrec1 hbody1) (fun _ => .rfl) (fun _ => .rfl)

end SecondRun

end Cert.Kernel.Gen

end
-- ==== Proof.R1BodyK.lean ====
/- The separation-logic half of the triplet kernel's region (pipeline 1), at any float type and at a
   parameter `V`: the TensorCore's buffer contents when the region is entered. The grid is 8 x 4 x 4,
   row-major; the two outputs (windows 2 and 3: the running sum of the hinge terms and the running
   count of the positive ones, one [1,1,128] block per i) are zeroed at the first point of each i
   (j = 0 and k = 0, the points whose number is a multiple of 16) and accumulated into at every point.
   Stated here: each window's block at a point, the body's triple in each of the two cases, what the
   two output buffers hold after each point (a recursion on the point), the pipeline's proof data and
   the body obligation. -/
import proofs.«118121_j17016660426841_2_alg».proof.Proof.Gen.Kernel.Launch
import proofs.«118121_j17016660426841_2_alg».proof.Proof.Gen.Kernel.Skeleton
import proofs.«118121_j17016660426841_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (j = 0 and k = 0), from the grid coordinates. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first point of each i: the points whose number is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The body's triple, case by case -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- CASE A (j = 0 and k = 0). On whole staging memrefs, the inputs' at contents `x0`, `x1` and the outputs' at
    anything, the body runs to the continuation holding the inputs' as they were, the sum's buffer at the
    point's term added to the zeros just stored and the count's likewise. -/
theorem sound_kernel1_A (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S1x1x128 .f32) (harg5 : arg5.IsWhole) (arg6 : Memref sig .tc .vmem S1x1x128 .f32) (harg6 : arg6.IsWhole)
    (hc0 : cond1_0 i) (x0 x1 : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (k1_pay6 x0 x1 (k1_pay2 (F := F)))
            ∗ owns (c : Thread nD τ) arg6 fullShare (k1_pay1 (k1_pay5 x0 x1) (k1_pay3 (F := F)))) -∗ K ⟨⟩))
      ⊢ wp frame (wpE (defs₀ (F := F)) Variants.none c none) E (cc1__triplet_kernel i arg3 harg3 arg4 harg4 arg5 harg5 arg6 harg6) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg4.eq_unread hf1
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz3 inb_S1x1x128_S1x1x128_0_0_0 y⟩)]
    rw [View.canon_cons_unit_zero (S := S1x1x128) hz3]
    simp only [View.readCov_unit_zero (S := S1x1x128) _ hz3, View.readAt_eq_ld, harg3.read_unread, harg4.read_unread,
      View.ld_unit_zero (S := S64x128) hz2]
  iexists _; isplitr
  swap; · iexact H3
  ipureintro
  sl_unfold_words
  rw [View.read_writes_eq_canon _ _ _ (fun y => ⟨_, List.Mem.head _, View.mem_set_unit_zero hz3 inb_S1x1x128_S1x1x128_0_0_0 y⟩)]
  rw [View.canon_cons_unit_zero (S := S1x1x128) hz3]
  simp only [View.readCov_unit_zero (S := S1x1x128) _ hz3, View.readAt_eq_ld, harg3.read_unread, harg4.read_unread,
    View.ld_unit_zero (S := S64x128) hz2]

set_option maxHeartbeats 1000000 in
/-- CASE B (every other point). The outputs' buffers at the running contents `xo2`, `xo3` the point before left:
    the body adds the point's term to each. -/
theorem sound_kernel1_B (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S1x1x128 .f32) (harg5 : arg5.IsWhole) (arg6 : Memref sig .tc .vmem S1x1x128 .f32) (harg6 : arg6.IsWhole)
    (hc0 : ¬cond1_0 i) (x0 x1 : Vec F S64x128 .f32) (xo2 xo3 : Vec F S1x1x128 .f32) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (iprop(owns (c : Thread nD τ) arg3 fullShare x0 ∗ owns (c : Thread nD τ) arg4 fullShare x1
            ∗ owns (c : Thread nD τ) arg5 fullShare (k1_pay6 x0 x1 xo2)
            ∗ owns (c : Thread nD τ) arg6 fullShare (k1_pay1 (k1_pay5 x0 x1) xo3)) -∗ K ⟨⟩))
      ⊢ wp frame (wpE (defs₀ (F := F)) Variants.none c none) E (cc1__triplet_kernel i arg3 harg3 arg4 harg4 arg5 harg5 arg6 harg6) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz3 inb_S1x1x128_S1x1x128_0_0_0 y⟩)]
    rw [View.canon_cons_unit_zero (S := S1x1x128) hz3]
    simp only [View.readAt_eq_ld, harg3.read_unread, harg4.read_unread, harg5.read_unread, harg6.read_unread,
      View.ld_unit_zero (S := S64x128) hz2, View.ld_unit_zero (S := S1x1x128) hz3]
  iexists _; isplitr
  swap; · iexact H3
  ipureintro
  sl_unfold_words
  rw [View.read_writes_eq_canon _ _ _ (fun y => ⟨_, List.Mem.head _, View.mem_set_unit_zero hz3 inb_S1x1x128_S1x1x128_0_0_0 y⟩)]
  rw [View.canon_cons_unit_zero (S := S1x1x128) hz3]
  simp only [View.readAt_eq_ld, harg3.read_unread, harg4.read_unread, harg5.read_unread, harg6.read_unread,
    View.ld_unit_zero (S := S64x128) hz2, View.ld_unit_zero (S := S1x1x128) hz3]

/-! ## What the outputs hold after each point -/

/-- THE RUNNING SUM. What window 2's staging buffer holds after the body at position `n`: at the first point of
    an i the point's term added to zeros, elsewhere added to what the point before left. -/
def outsAt1_2 (c : Dev nD) : (n : ℕ) → n < cfg1.N → Vec F S1x1x128 .f32
  | 0, hn => k1_pay6 (iblk1 V c 0 ⟨0, hn⟩) (iblk1 V c 1 ⟨0, hn⟩) (k1_pay2 (F := F))
  | n + 1, hn =>
    if (n + 1) % 16 = 0 then k1_pay6 (iblk1 V c 0 ⟨n + 1, hn⟩) (iblk1 V c 1 ⟨n + 1, hn⟩) (k1_pay2 (F := F))
    else k1_pay6 (iblk1 V c 0 ⟨n + 1, hn⟩) (iblk1 V c 1 ⟨n + 1, hn⟩) (outsAt1_2 c n (Nat.lt_of_succ_lt hn))

/-- THE RUNNING COUNT: the same for window 3. -/
def outsAt1_3 (c : Dev nD) : (n : ℕ) → n < cfg1.N → Vec F S1x1x128 .f32
  | 0, hn => k1_pay1 (k1_pay5 (iblk1 V c 0 ⟨0, hn⟩) (iblk1 V c 1 ⟨0, hn⟩)) (k1_pay3 (F := F))
  | n + 1, hn =>
    if (n + 1) % 16 = 0 then k1_pay1 (k1_pay5 (iblk1 V c 0 ⟨n + 1, hn⟩) (iblk1 V c 1 ⟨n + 1, hn⟩)) (k1_pay3 (F := F))
    else k1_pay1 (k1_pay5 (iblk1 V c 0 ⟨n + 1, hn⟩) (iblk1 V c 1 ⟨n + 1, hn⟩)) (outsAt1_3 c n (Nat.lt_of_succ_lt hn))

/-- The running sum at a first point of an i: the point's term over zeros. -/
theorem outsAt1_2_reset (c : Dev nD) (t : Fin cfg1.N) (h0 : t.val % 16 = 0) :
    outsAt1_2 V c t.val t.isLt = k1_pay6 (iblk1 V c 0 t) (iblk1 V c 1 t) (k1_pay2 (F := F)) := by
  obtain ⟨n, hn⟩ := t
  cases n with
  | zero => exact rfl
  | succ n => exact (if_pos h0).trans rfl

/-- The running sum at any other point: the point's term over what the point before left. -/
theorem outsAt1_2_acc (c : Dev nD) (t : Fin cfg1.N) (h0 : ¬t.val % 16 = 0) :
    outsAt1_2 V c t.val t.isLt = k1_pay6 (iblk1 V c 0 t) (iblk1 V c 1 t) (outsAt1_2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The running count at a first point of an i. -/
theorem outsAt1_3_reset (c : Dev nD) (t : Fin cfg1.N) (h0 : t.val % 16 = 0) :
    outsAt1_3 V c t.val t.isLt = k1_pay1 (k1_pay5 (iblk1 V c 0 t) (iblk1 V c 1 t)) (k1_pay3 (F := F)) := by
  obtain ⟨n, hn⟩ := t
  cases n with
  | zero => exact rfl
  | succ n => exact (if_pos h0).trans rfl

/-- The running count at any other point. -/
theorem outsAt1_3_acc (c : Dev nD) (t : Fin cfg1.N) (h0 : ¬t.val % 16 = 0) :
    outsAt1_3 V c t.val t.isLt = k1_pay1 (k1_pay5 (iblk1 V c 0 t) (iblk1 V c 1 t)) (outsAt1_3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them (`V`); after the body at point
    `t` each input's buffer at its block, the sum's at the running sum and the count's at the running count;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1_2 V c t.val t.isLt
    | ⟨3, _⟩ => outsAt1_3 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1_2 V c t.val t.isLt := by dsimp only [dat1]
theorem after1_3 (c : Dev nD) (t : Fin cfg1.N) : (dat1 V c).after 3 t = outsAt1_3 V c t.val t.isLt := by dsimp only [dat1]

/-- The point before `t`. -/
abbrev prev1 (t : Fin cfg1.N) : Fin cfg1.N := ⟨t.val - 1, Nat.lt_of_le_of_lt (Nat.sub_le _ _) t.isLt⟩

/-- After a first point of an i the sum's buffer holds the point's term over zeros. -/
theorem after1_2_reset (c : Dev nD) (t : Fin cfg1.N) (h0 : t.val % 16 = 0) :
    (dat1 V c).after 2 t = k1_pay6 (iblk1 V c 0 t) (iblk1 V c 1 t) (k1_pay2 (F := F)) :=
  (after1_2 V c t).trans (outsAt1_2_reset V c t h0)
/-- After any other point it holds the point's term over what the point before left. -/
theorem after1_2_acc (c : Dev nD) (t : Fin cfg1.N) (h0 : ¬t.val % 16 = 0) :
    (dat1 V c).after 2 t = k1_pay6 (iblk1 V c 0 t) (iblk1 V c 1 t) ((dat1 V c).after 2 (prev1 t)) := by
  rw [after1_2, after1_2, outsAt1_2_acc V c t h0]
/-- After a first point of an i the count's buffer holds the point's count over zeros. -/
theorem after1_3_reset (c : Dev nD) (t : Fin cfg1.N) (h0 : t.val % 16 = 0) :
    (dat1 V c).after 3 t = k1_pay1 (k1_pay5 (iblk1 V c 0 t) (iblk1 V c 1 t)) (k1_pay3 (F := F)) :=
  (after1_3 V c t).trans (outsAt1_3_reset V c t h0)
/-- After any other point it holds the point's count over what the point before left. -/
theorem after1_3_acc (c : Dev nD) (t : Fin cfg1.N) (h0 : ¬t.val % 16 = 0) :
    (dat1 V c).after 3 t = k1_pay1 (k1_pay5 (iblk1 V c 0 t) (iblk1 V c 1 t)) ((dat1 V c).after 3 (prev1 t)) := by
  rw [after1_3, after1_3, outsAt1_3_acc V c t h0]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point that is not the first of its i the sum's current staging buffer holds what the body left at the
    point before: the point is not the first, the buffer was not written back between (write-backs happen after
    the last point of an i only), the window is never idle and uncut. -/
theorem before1_2_B (c : Dev nD) (t : Fin cfg1.N) (h0 : ¬t.val % 16 = 0) (d) :
    (dat1 V c).before 2 t d = outsAt1_2 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]
/-- The same for the count's buffer. -/
theorem before1_3_B (c : Dev nD) (t : Fin cfg1.N) (h0 : ¬t.val % 16 = 0) (d) :
    (dat1 V c).before 3 t d = outsAt1_3 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' memrefs hold their blocks; the closed form of the condition says which case
    the point is in; at a point that is not the first of its i each output's memref holds what the point before
    left; so the case's triple applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 16 = 0
  · rw [outsAt1_2_reset V c t h0, outsAt1_3_reset V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_0 t).mpr h0) (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_2_acc V c t h0, outsAt1_3_acc V c t h0]
    simp only [before1_2_B V c t h0, before1_3_B V c t h0]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h => h0 ((hcond1_0 t).mp h)) (iblk1 V c 0 t) (iblk1 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.FrameK.lean ====
/-
  The run of the program with both regions' proof data in place, and its frame: every weakly fair execution terminates,
  nothing faults, and the two argument arrays end holding their launch contents (no host line writes them, the first
  region does not touch them, the second reads nothing of them).
-/
import proofs.«118121_j17016660426841_2_alg».proof.Proof.RunK
import proofs.«118121_j17016660426841_2_alg».proof.Proof.R1BodyK
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's proof data at the contents it is entered from. -/
abbrev d1At (c : Dev nD) : Dat τ (Elt F) Unit ℕ (UR sig nD τ) ℕ cfg1 c := dat1 (Vin1 m) c

/-- The regions' outputs: the distance matrix and the arrays of partial sums and counts. -/
abbrev outsAll : Outs (F := F) := outsB m (d1At m)

/-- THE RUN, every unscoped buffer's final contents named. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = V9 m (outsAll m) c b) :=
  run_all m ρ (d1At m) (fun c w => A_eq1 (Vin1 m) c w) (fun _ _ => rfl) (fun _ _ => rfl) (fun _ _ => rfl) (fun _ _ => rfl)
    (fun c => body_obligation1 (Vin1 m) c)

/-- An unscoped TensorCore reference is among those whose final contents the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (mem_uc main_arg0 (by decide))).trans (V9_main_arg0 m (outsAll m) c),
     (h c (Proc.devRef .tc main_arg1) (mem_uc main_arg1 (by decide))).trans (V9_main_arg1 m (outsAll m) c)⟩) (run_named m ρ)

end Cert.Kernel.Gen

end
-- ==== Proof.R0Body.lean ====
/-
  The first kernel region (the distance blocks), at the buffer contents `V` the region is entered from.

  The grid has 4 × 4 points; at point (i, j) the body loads rows block i and rows block j of the normalised
  matrix (two windows onto ONE array, each a 128 × 768 block), multiplies the first by the transpose of the second
  and stores one minus the product into the 128 × 128 output block (i, j). Nothing is kept between points. Stated
  here: each window's block at a point, what the output's buffer holds after the body (its single store, which
  covers the buffer), the body's triple, and the proof data of the pipeline. The two input windows read the same
  array, so the proof data hold it at the two halves of the full share, one half per window.
-/
import proofs.«118121_j17016660426841_2_alg».proof.Proof.Gen.KernelIdeal.Launch
import proofs.«118121_j17016660426841_2_alg».proof.Proof.Gen.KernelIdeal.Skeleton
import proofs.«118121_j17016660426841_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output's buffer -/

abbrev rIn0 : Rect S128x768 := Rect.unit (s := S128x768) ![0, 0] S128x768.size inb_S128x768_S128x768_0_0
abbrev rOut0 : Rect S128x128 := Rect.unit (s := S128x128) ![0, 0] S128x128.size inb_S128x128_S128x128_0_0

/-- The output block after the body: its one store, of one minus the product of the two loaded blocks. -/
def out0_2 (x0 x1 : Vec F S128x768 .bf16) : Vec F S128x128 .f32 :=
  View.canon [⟨rOut0, k0_pay1 (View.ld x0 rIn0) (View.ld x1 rIn0)⟩]

/-- The store covers the buffer. -/
theorem cover0_2 (p0 : Vec F S128x128 .f32) (y : S128x128.Idx) :
    ∃ pc ∈ ([⟨rOut0, p0⟩] : List (View.Piece (Elt F) S128x128 .f32)), y ∈ pc.1.set :=
  View.cover_of_tiled [⟨rOut0, p0⟩] S128x128.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg2 : Memref sig .tc .vmem S128x768 .bf16) (harg2 : arg2.IsWhole)
    (arg3 : Memref sig .tc .vmem S128x768 .bf16) (harg3 : arg3.IsWhole) (arg4 : Memref sig .tc .vmem S128x128 .f32) (harg4 : arg4.IsWhole)
    (x0 x1 : Vec F S128x768 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__cos_kernel i arg2 harg2 arg3 harg3 arg4 harg4) K := by
  simp only [cc0__cos_kernel_eq_skeleton]; unfold cc0__cos_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body each input's
    buffer at its block and the output's at `out0_2` of the two input blocks; the class's invariant; nothing owed;
    the shared input array held half by each of its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Arr0.lean ====
/-
  The first region's arrays against the buffers behind them. Its two input windows read one array, so entering the
  region the array's points-to is split in two halves, one per window, and leaving it the halves are joined again; the
  output window's array is a buffer of its own.
-/
import proofs.«118121_j17016660426841_2_alg».proof.Proof.R0Body
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three windows are two. -/
theorem img0 : Finset.univ.image (Pipeline.arrRef spec0) = {main_v5, main_v6} := by decide

/-- Window by window: the array's points-to as the proof data hold it, any contents `G`. -/
theorem arr0_0 (c : Dev nD) (G : Buf (Elt F) ((cfg0.win 0).arr.view.loc (c : Thread nD τ))) :
    (View.loc (c : Thread nD τ) (cfg0.win 0).arr.view ↦[(cfg0.win 0).arr.view.set]{(dat0 V c).share 0} G : sProp 𝕄)
      = ((c : Thread nD τ).loc main_v5 ↦{fullShare.left} G) := by
  rw [(arr_whole0 0).set_eq_univ]; rfl
theorem arr0_1 (c : Dev nD) (G : Buf (Elt F) ((cfg0.win 1).arr.view.loc (c : Thread nD τ))) :
    (View.loc (c : Thread nD τ) (cfg0.win 1).arr.view ↦[(cfg0.win 1).arr.view.set]{(dat0 V c).share 1} G : sProp 𝕄)
      = ((c : Thread nD τ).loc main_v5 ↦{fullShare.right} G) := by
  rw [(arr_whole0 1).set_eq_univ]; rfl
theorem arr0_2 (c : Dev nD) (G : Buf (Elt F) ((cfg0.win 2).arr.view.loc (c : Thread nD τ))) :
    (View.loc (c : Thread nD τ) (cfg0.win 2).arr.view ↦[(cfg0.win 2).arr.view.set]{(dat0 V c).share 2} G : sProp 𝕄)
      = ((c : Thread nD τ).loc main_v6 ↦{fullShare} G) := by
  rw [(arr_whole0 2).set_eq_univ]; rfl

/-- ENTRY: the two buffers, whole, make the three windows' arrays at the contents the region finds. -/
theorem split0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [img0, bigSep_insert (by decide), bigSep_singleton, bigSep_W0, arr0_0, arr0_1, arr0_2]
  show iprop(((c : Thread nD τ).loc main_v5 ↦{fullShare} V c main_v5) ∗ ((c : Thread nD τ).loc main_v6 ↦{fullShare} V c main_v6)) ⊢ _
  iintro ⟨H5, H6⟩
  ihave H := (pointsTo_share (PosShare.mem_left_op_right fullShare)).1 $$ H5
  icases H with ⟨Ha, Hb⟩
  isplitl [Ha]; · iexact Ha
  isplitl [Hb]; · iexact Hb
  iexact H6

/-- EXIT: the three windows' arrays, the two inputs' at one contents `G5`, make the two buffers whole. -/
theorem join0 (c : Dev nD) (Fa : (w : Fin cfg0.W) → Buf (Elt F) ((cfg0.win w).arr.view.loc (c : Thread nD τ)))
    (V' : (b : Ref sig .tc) → Buf (Elt F) ((c : Thread nD τ).loc b))
    (h0 : Fa 0 = V' main_v5) (h1 : Fa 1 = V' main_v5) (h2 : Fa 2 = V' main_v6) :
    (dat0 V c).arrays Fa ⊢ (Pipeline.arrBufs (Ix := Unit) (Name := ℕ) (U := UR sig nD τ) (Lvl := ℕ) spec0 c V' : sProp 𝕄) := by
  unfold Pipeline.arrBufs Dat.arrays
  rw [img0, bigSep_insert (by decide), bigSep_singleton, bigSep_W0, arr0_0, arr0_1, arr0_2, h0, h1, h2]
  show _ ⊢ iprop(((c : Thread nD τ).loc main_v5 ↦{fullShare} V' main_v5) ∗ ((c : Thread nD τ).loc main_v6 ↦{fullShare} V' main_v6))
  iintro ⟨Ha, Hb, H6⟩
  isplitl [Ha Hb]
  · iapply (pointsTo_share (PosShare.mem_left_op_right fullShare)).2
    isplitl [Ha]; · iexact Ha
    iexact Hb
  iexact H6

end Cert.KernelIdeal.Gen

end
-- ==== Proof.RunCond.lean ====
/-
  The program's run with every final buffer NAMED. @main is nine items: host lines, the first kernel region, host lines,
  the second region, host lines. Given, for each region, a record of its run entered from the buffer contents before
  it and left at the contents after it, every weakly fair execution terminates and every buffer that is not scoped to a
  region ends at the last item's contents `V9` — the arguments among them (unchanged) and the result.
-/
import proofs.«118121_j17016660426841_2_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, with the final contents of every unscoped buffer: the launch over the nine segments, the last thread state
    read against the final memory. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0, StableHlo.seq hostOps0_1, Prog.lift (.customCall (Pipeline.entry 0) ()),
          StableHlo.seq hostOps1, StableHlo.seq hostOps1_1, StableHlo.seq hostOps1_2, StableHlo.seq hostOps1_3,
          Prog.lift (.customCall (Pipeline.entry 1) ()), StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, hpre0 c, hpost0 c, .rfl, .rfl, .rfl, hpre1 c, hpost1 c, sep_mono .rfl (hE2 c)⟩)
    (hinit := ?_)
    (QY := fun c s => ∀ b ∈ Pipeline.ucRefs τ sig, s.mem (((c : Thread nD τ)).1, b) = V9 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last thread state
    unfold StableHlo.held
    iintro ⟨Hh, HSI⟩
    imodintro
    iapply (pointsTo_read_all (Pipeline.ucRefs τ sig) (fun b => (((c : Thread nD τ)).1, b)) (V9 m outs c) s')
    isplitl [Hh] <;> iassumption

end Cert.KernelIdeal.Gen

end
-- ==== Proof.Run.lean ====
/-
  The run of the whole program with the contents both kernel regions leave NAMED.

  The buffer contents between @main's items are a fold from the launch memory: the host lines' results, then what a
  region writes. The first region writes the distance matrix: its output array after its sixteen points. The second
  writes the two arrays of partial sums: its output arrays after its 128 points. Each region is entered from the
  contents before it and left at the contents after it; between them rides the core's generator register and the
  fact that the core owes nothing. The second region's proof data are a parameter here, with what the run needs of
  them: their arrays are the entry contents, full shares, the plain invariant, nothing owed, the body obligation.
-/
import proofs.«118121_j17016660426841_2_alg».proof.Proof.Arr0
import proofs.«118121_j17016660426841_2_alg».proof.Proof.RunCond
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L0 : GSem nD τ sig → Finset Unit := fun _ => ∅
abbrev lv0 : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## What the regions leave -/

/-- The contents the first region is entered from. -/
abbrev Vin0 : (c : Dev nD) → (b : Ref sig .tc) → Buf (Elt F) ((c : Thread nD τ).loc b) := fun c b => V2 m c b
/-- The distance matrix: the first region's output array after its last point. -/
def X0 (c : Dev nD) : Buf (Elt F) ((c : Thread nD τ).loc main_v6) := (dat0 (Vin0 m) c).arrAt 2 cfg0.N
/-- The regions' outputs, first stage: the distance matrix only. -/
def outsA : Outs (F := F) := fun _ r c => Function.update (V2 m c) main_v6 (X0 m c) r
theorem outsA_v6 (c : Dev nD) : outsA m 3 main_v6 c = X0 m c := by
  unfold outsA; exact Function.update_self _ _ _
/-- The contents the second region is entered from. -/
abbrev Vin1 : (c : Dev nD) → (b : Ref sig .tc) → Buf (Elt F) ((c : Thread nD τ).loc b) := fun c b => V7 m (outsA m) c b

section Second

variable (d1 : (c : Dev nD) → Dat τ (Elt F) Unit ℕ (UR sig nD τ) ℕ cfg1 c)

/-- The two arrays of partial sums: the second region's output arrays after its last point. -/
def Y2 (c : Dev nD) : Buf (Elt F) ((c : Thread nD τ).loc main_v24_0) := (d1 c).arrAt 2 cfg1.N
def Y3 (c : Dev nD) : Buf (Elt F) ((c : Thread nD τ).loc main_v24_1) := (d1 c).arrAt 3 cfg1.N
/-- The regions' outputs: the distance matrix and the partial sums. -/
def outsB : Outs (F := F) := fun _ r c =>
  Function.update (Function.update (V7 m (outsA m) c) main_v24_0 (Y2 d1 c)) main_v24_1 (Y3 d1 c) r

theorem outsB_v6 (c : Dev nD) : outsB m d1 3 main_v6 c = X0 m c := by
  unfold outsB
  rw [Function.update_of_ne (StableHlo.devRef_ne_of_ne (by decide) : (Proc.devRef .tc main_v6 : DevRef τ sig) ≠ Proc.devRef .tc main_v24_1),
    Function.update_of_ne (StableHlo.devRef_ne_of_ne (by decide) : (Proc.devRef .tc main_v6 : DevRef τ sig) ≠ Proc.devRef .tc main_v24_0)]
  exact (V7_of m (outsA m) c main_v6 (by decide)).trans <| (V6_of m (outsA m) c main_v6 (by decide)).trans <|
    (V5_of m (outsA m) c main_v6 (by decide)).trans <| (V4_of m (outsA m) c main_v6 (by decide)).trans <|
    (Function.update_self _ _ _).trans (outsA_v6 m c)
theorem outsB_v24_0 (c : Dev nD) : outsB m d1 8 main_v24_0 c = Y2 d1 c := by
  unfold outsB
  rw [Function.update_of_ne (StableHlo.devRef_ne_of_ne (by decide) : (Proc.devRef .tc main_v24_0 : DevRef τ sig) ≠ Proc.devRef .tc main_v24_1)]
  exact Function.update_self _ _ _
theorem outsB_v24_1 (c : Dev nD) : outsB m d1 8 main_v24_1 c = Y3 d1 c := by
  unfold outsB; exact Function.update_self _ _ _

/-- With all outputs named the contents after the first region are those of the first stage, -/
theorem V3_B (c : Dev nD) : V3 m (outsB m d1) c = V3 m (outsA m) c := by
  show Function.update (V2 m c) main_v6 (outsB m d1 3 main_v6 c) = Function.update (V2 m c) main_v6 (outsA m 3 main_v6 c)
  rw [outsB_v6, outsA_v6]
/-- and so are the contents the second region is entered from. -/
theorem V7_B (c : Dev nD) : V7 m (outsB m d1) c = V7 m (outsA m) c := by
  show StableHlo.after hostOps1_3 (StableHlo.after hostOps1_2 (StableHlo.after hostOps1_1 (StableHlo.after hostOps1 (V3 m (outsB m d1) c))))
    = StableHlo.after hostOps1_3 (StableHlo.after hostOps1_2 (StableHlo.after hostOps1_1 (StableHlo.after hostOps1 (V3 m (outsA m) c))))
  rw [V3_B]

/-- Both pipelines' proof data. -/
def mkPdats : (p : Fin 2) → (c : Dev nD) → Dat τ (Elt F) Unit ℕ (UR sig nD τ) ℕ (cfgs p) c
  | ⟨0, _⟩ => fun c => dat0 (Vin0 m) c
  | ⟨1, _⟩ => fun c => d1 c

set_option backward.isDefEq.respectTransparency.types false in
/-- THE FIRST REGION as a segment: entered from the contents `V2`, left at `V3`. Entering, the buffers behind its windows
    are split out of the unscoped buffers, the shared input array dealt in halves; leaving, they are put back. -/
def reg0 : Pipeline.RegionSeg (pcfgs (F := F)) adm (mkPdats m d1) () defs₀ Variants.none L0 lv0 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (V2 m c) ∗ Rr c)
  post c := iprop(StableHlo.held (c : Thread nD τ) (Pipeline.ucRefs τ sig) (V3 m (outsB m d1) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs (Ix := Unit) (Name := ℕ) (U := UR sig nD τ) (Lvl := ℕ) c (Vin0 m c) : sProp 𝕄)
        ⊢ iprop((dat0 (Vin0 m) c).arrays ((dat0 (Vin0 m) c).arrAt · 0) ∗ Pipeline.unscopedRest spec0 c (Vin0 m c)) := by
      rw [Pipeline.unscopedBufs_split₀ cfgs 0 winFacts₀0.arr_unscoped c (Vin0 m c)]
      exact sep_mono (split0 (Vin0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (mkPdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (mkPdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (Vin0 m) c).arrays ((dat0 (Vin0 m) c).arrAt · cfg0.N) ∗ Pipeline.unscopedRest spec0 c (Vin0 m c))
        ⊢ (unscopedBufs (Ix := Unit) (Name := ℕ) (U := UR sig nD τ) (Lvl := ℕ) c (fun b => V3 m (outsB m d1) c b) : sProp 𝕄) := by
      rw [Pipeline.unscopedBufs_split₀ cfgs 0 winFacts₀0.arr_unscoped c (fun b => V3 m (outsB m d1) c b)]
      refine sep_mono (join0 (Vin0 m) c _ _ ?_ ?_ ?_) (Entails.of_eq ?_)
      · exact ((dat0 (Vin0 m) c).arrAt_in 0 rfl _).trans ((A_eq0 (Vin0 m) c 0).trans (V3_of m (outsB m d1) c main_v5 (by decide)).symm)
      · exact ((dat0 (Vin0 m) c).arrAt_in 1 rfl _).trans ((A_eq0 (Vin0 m) c 1).trans (V3_of m (outsB m d1) c main_v5 (by decide)).symm)
      · show X0 m c = Function.update (V2 m c) main_v6 (outsB m d1 3 main_v6 c) main_v6
        rw [Function.update_self, outsB_v6]
      · unfold Pipeline.unscopedRest
        exact bigSep_congr fun b hb => by
          dsimp only
          rw [V3_of m (outsB m d1) c b (by
            intro hm
            refine (Finset.mem_sdiff.mp hb).2 (Finset.mem_image.mpr ⟨2, Finset.mem_univ _, ?_⟩)
            rw [List.mem_singleton] at hm; rw [hm])]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Second

section SecondRun

variable (d1 : (c : Dev nD) → Dat τ (Elt F) Unit ℕ (UR sig nD τ) ℕ cfg1 c)
  (hA1 : ∀ c w, (d1 c).A w = Vin1 m c (Pipeline.arrRef spec1 w))
  (hq1 : ∀ c w, (d1 c).q w = fullShare)
  (hΦ1 : ∀ c t, (d1 c).Φ t = Pipeline.ΦA spec1 c)
  (howed1 : ∀ c t, (d1 c).owed t = 0)
  (hrec1 : ∀ c t, (d1 c).recorded t = Set.univ)
  (hbody1 : ∀ c, BodyObligation (d1 c) (defs₀ (F := F)) Variants.none () Set.univ)

include hA1 in
/-- After the second region each of its arrays holds what the pipeline leaves: the inputs what they held, the two
    outputs the partial sums. -/
theorem hF1 (c : Dev nD) (w : Fin cfg1.W) : (d1 c).arrAt w cfg1.N = V8 m (outsB m d1) c (Pipeline.arrRef spec1 w) := by
  match w with
  | ⟨0, _⟩ =>
    refine ((d1 c).arrAt_in 0 rfl _).trans ((hA1 c 0).trans ?_)
    show V7 m (outsA m) c main_v21 = V8 m (outsB m d1) c main_v21
    rw [V8_of m (outsB m d1) c main_v21 (by decide), V7_B]
  | ⟨1, _⟩ =>
    refine ((d1 c).arrAt_in 1 rfl _).trans ((hA1 c 1).trans ?_)
    show V7 m (outsA m) c main_v23 = V8 m (outsB m d1) c main_v23
    rw [V8_of m (outsB m d1) c main_v23 (by decide), V7_B]
  | ⟨2, _⟩ =>
    show Y2 d1 c = Function.update (Function.update (V7 m (outsB m d1) c) main_v24_0 (outsB m d1 8 main_v24_0 c)) main_v24_1 (outsB m d1 8 main_v24_1 c) main_v24_0
    rw [Function.update_of_ne (StableHlo.devRef_ne_of_ne (by decide) : (Proc.devRef .tc main_v24_0 : DevRef τ sig) ≠ Proc.devRef .tc main_v24_1),
      Function.update_self, outsB_v24_0]
  | ⟨3, _⟩ =>
    show Y3 d1 c = Function.update (Function.update (V7 m (outsB m d1) c) main_v24_0 (outsB m d1 8 main_v24_0 c)) main_v24_1 (outsB m d1 8 main_v24_1 c) main_v24_1
    rw [Function.update_self, outsB_v24_1]

/-- Every other buffer holds what it held at the region's entry. -/
theorem hrest1 (c : Dev nD) : ∀ b, b ∉ Finset.univ.image (Pipeline.arrRef spec1) → V8 m (outsB m d1) c b = Vin1 m c b := fun b hb => by
  show V8 m (outsB m d1) c b = V7 m (outsA m) c b
  rw [← V7_B m d1 c]
  refine V8_of m (outsB m d1) c b fun hm => hb ?_
  rcases List.mem_cons.mp hm with h | h
  · exact Finset.mem_image.mpr ⟨2, Finset.mem_univ _, h ▸ rfl⟩
  · rw [List.mem_singleton] at h
    exact Finset.mem_image.mpr ⟨3, Finset.mem_univ _, h ▸ rfl⟩

set_option backward.isDefEq.respectTransparency.types false in
/-- THE SECOND REGION as a segment: entered from the contents `V7`, left at `V8`. Its four arrays are four buffers. -/
def reg1 : Pipeline.RegionSeg (pcfgs (F := F)) adm (mkPdats m d1) () defs₀ Variants.none L0 lv0 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ L0 lv0 1 fun c t => howed1 c t
  pre c := iprop(StableHlo.held (c : Thread nD τ) (Pipeline.ucRefs τ sig) (V7 m (outsB m d1) c) ∗ Rr c)
  post c := iprop(StableHlo.held (c : Thread nD τ) (Pipeline.ucRefs τ sig) (V8 m (outsB m d1) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_B]
    have hsplit := Pipeline.arrays_of_unscopedBufs (p := 1) (pcfgs (F := F)) adm (mkPdats m d1) launch1.win launch1.arr_whole c
      ((mkPdats m d1 1 c).share_full fun w => hq1 c w) (Vin1 m c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show ∀ t, (mkPdats m d1 1 c).owed t = 0 from fun t => howed1 c t]
      icases HO with ⟨%W, HO⟩; iexists W; isplitr; · ipureintro; exact fun x _ => Or.inl ((show (mkPdats m d1 1 c).recorded 0 = Set.univ from hrec1 c 0) ▸ Set.mem_univ x)
      iexact HO
    isplitl [Hp]; · iexact Hp
    iexact Hrest
  hin c := by
    rw [show (mkPdats m d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (mkPdats m d1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (mkPdats m d1) ((mkPdats m d1 1 c).share_full fun w => hq1 c w)
      (Vin1 m c) (fun b => V8 m (outsB m d1) c b) ((mkPdats m d1 1 c).arrAt · cfg1.N) (hF1 m d1 hA1 c) (hrest1 m d1 c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    simp only [show ∀ t, (mkPdats m d1 1 c).owed t = 0 from fun t => howed1 c t]
    icases HO with ⟨%W, -, HO⟩; iexists W; iexact HO

include hA1 hq1 hΦ1 howed1 hrec1 hbody1 in
set_option backward.isDefEq.respectTransparency.types false in
/-- THE RUN: every weakly fair execution of @main terminates, and every unscoped buffer ends at the last contents
    `V9`, the regions' outputs being the distance matrix and the partial sums. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V9 m (outsB m d1) c b) :=
  run_cond m emb₁ () Variants.none L0 lv0 (fun _ _ => rfl) ρ (outsB m d1) (mkPdats m d1) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hE : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
          ⊢ bigSep Finset.univ fun c : Dev nD => Rr c := bigSep_mono fun c _ => hE c
      iintro ⟨H, -⟩
      imodintro
      iapply hmono
      iexact H)
    (fun c => by iintro ⟨-, H⟩; iexact H)
    (reg0 m d1) (fun _ => .rfl) (fun _ => .rfl)
    (reg1 m d1 hA1 hq1 hΦ1 howed1 hrec1 hbody1) (fun _ => .rfl) (fun _ => .rfl)

end SecondRun

end Cert.KernelIdeal.Gen

end
-- ==== Proof.R1Body.lean ====
/- The separation-logic half of the triplet kernel's region (pipeline 1), at any float type and at a
   parameter `V`: the TensorCore's buffer contents when the region is entered. The grid is 8 x 4 x 4,
   row-major; the two outputs (windows 2 and 3: the running sum of the hinge terms and the running
   count of the positive ones, one [1,1,128] block per i) are zeroed at the first point of each i
   (j = 0 and k = 0, the points whose number is a multiple of 16) and accumulated into at every point.
   Stated here: each window's block at a point, the body's triple in each of the two cases, what the
   two output buffers hold after each point (a recursion on the point), the pipeline's proof data and
   the body obligation. -/
import proofs.«118121_j17016660426841_2_alg».proof.Proof.Gen.KernelIdeal.Launch
import proofs.«118121_j17016660426841_2_alg».proof.Proof.Gen.KernelIdeal.Skeleton
import proofs.«118121_j17016660426841_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (j = 0 and k = 0), from the grid coordinates. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first point of each i: the points whose number is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The body's triple, case by case -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- CASE A (j = 0 and k = 0). On whole staging memrefs, the inputs' at contents `x0`, `x1` and the outputs' at
    anything, the body runs to the continuation holding the inputs' as they were, the sum's buffer at the
    point's term added to the zeros just stored and the count's likewise. -/
theorem sound_kernel1_A (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S1x1x128 .f32) (harg5 : arg5.IsWhole) (arg6 : Memref sig .tc .vmem S1x1x128 .f32) (harg6 : arg6.IsWhole)
    (hc0 : cond1_0 i) (x0 x1 : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (k1_pay6 x0 x1 (k1_pay2 (F := F)))
            ∗ owns (c : Thread nD τ) arg6 fullShare (k1_pay1 (k1_pay5 x0 x1) (k1_pay3 (F := F)))) -∗ K ⟨⟩))
      ⊢ wp frame (wpE (defs₀ (F := F)) Variants.none c none) E (cc1__triplet_kernel i arg3 harg3 arg4 harg4 arg5 harg5 arg6 harg6) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg4.eq_unread hf1
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz3 inb_S1x1x128_S1x1x128_0_0_0 y⟩)]
    rw [View.canon_cons_unit_zero (S := S1x1x128) hz3]
    simp only [View.readCov_unit_zero (S := S1x1x128) _ hz3, View.readAt_eq_ld, harg3.read_unread, harg4.read_unread,
      View.ld_unit_zero (S := S64x128) hz2]
  iexists _; isplitr
  swap; · iexact H3
  ipureintro
  sl_unfold_words
  rw [View.read_writes_eq_canon _ _ _ (fun y => ⟨_, List.Mem.head _, View.mem_set_unit_zero hz3 inb_S1x1x128_S1x1x128_0_0_0 y⟩)]
  rw [View.canon_cons_unit_zero (S := S1x1x128) hz3]
  simp only [View.readCov_unit_zero (S := S1x1x128) _ hz3, View.readAt_eq_ld, harg3.read_unread, harg4.read_unread,
    View.ld_unit_zero (S := S64x128) hz2]

set_option maxHeartbeats 1000000 in
/-- CASE B (every other point). The outputs' buffers at the running contents `xo2`, `xo3` the point before left:
    the body adds the point's term to each. -/
theorem sound_kernel1_B (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S1x1x128 .f32) (harg5 : arg5.IsWhole) (arg6 : Memref sig .tc .vmem S1x1x128 .f32) (harg6 : arg6.IsWhole)
    (hc0 : ¬cond1_0 i) (x0 x1 : Vec F S64x128 .f32) (xo2 xo3 : Vec F S1x1x128 .f32) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (iprop(owns (c : Thread nD τ) arg3 fullShare x0 ∗ owns (c : Thread nD τ) arg4 fullShare x1
            ∗ owns (c : Thread nD τ) arg5 fullShare (k1_pay6 x0 x1 xo2)
            ∗ owns (c : Thread nD τ) arg6 fullShare (k1_pay1 (k1_pay5 x0 x1) xo3)) -∗ K ⟨⟩))
      ⊢ wp frame (wpE (defs₀ (F := F)) Variants.none c none) E (cc1__triplet_kernel i arg3 harg3 arg4 harg4 arg5 harg5 arg6 harg6) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz3 inb_S1x1x128_S1x1x128_0_0_0 y⟩)]
    rw [View.canon_cons_unit_zero (S := S1x1x128) hz3]
    simp only [View.readAt_eq_ld, harg3.read_unread, harg4.read_unread, harg5.read_unread, harg6.read_unread,
      View.ld_unit_zero (S := S64x128) hz2, View.ld_unit_zero (S := S1x1x128) hz3]
  iexists _; isplitr
  swap; · iexact H3
  ipureintro
  sl_unfold_words
  rw [View.read_writes_eq_canon _ _ _ (fun y => ⟨_, List.Mem.head _, View.mem_set_unit_zero hz3 inb_S1x1x128_S1x1x128_0_0_0 y⟩)]
  rw [View.canon_cons_unit_zero (S := S1x1x128) hz3]
  simp only [View.readAt_eq_ld, harg3.read_unread, harg4.read_unread, harg5.read_unread, harg6.read_unread,
    View.ld_unit_zero (S := S64x128) hz2, View.ld_unit_zero (S := S1x1x128) hz3]

/-! ## What the outputs hold after each point -/

/-- THE RUNNING SUM. What window 2's staging buffer holds after the body at position `n`: at the first point of
    an i the point's term added to zeros, elsewhere added to what the point before left. -/
def outsAt1_2 (c : Dev nD) : (n : ℕ) → n < cfg1.N → Vec F S1x1x128 .f32
  | 0, hn => k1_pay6 (iblk1 V c 0 ⟨0, hn⟩) (iblk1 V c 1 ⟨0, hn⟩) (k1_pay2 (F := F))
  | n + 1, hn =>
    if (n + 1) % 16 = 0 then k1_pay6 (iblk1 V c 0 ⟨n + 1, hn⟩) (iblk1 V c 1 ⟨n + 1, hn⟩) (k1_pay2 (F := F))
    else k1_pay6 (iblk1 V c 0 ⟨n + 1, hn⟩) (iblk1 V c 1 ⟨n + 1, hn⟩) (outsAt1_2 c n (Nat.lt_of_succ_lt hn))

/-- THE RUNNING COUNT: the same for window 3. -/
def outsAt1_3 (c : Dev nD) : (n : ℕ) → n < cfg1.N → Vec F S1x1x128 .f32
  | 0, hn => k1_pay1 (k1_pay5 (iblk1 V c 0 ⟨0, hn⟩) (iblk1 V c 1 ⟨0, hn⟩)) (k1_pay3 (F := F))
  | n + 1, hn =>
    if (n + 1) % 16 = 0 then k1_pay1 (k1_pay5 (iblk1 V c 0 ⟨n + 1, hn⟩) (iblk1 V c 1 ⟨n + 1, hn⟩)) (k1_pay3 (F := F))
    else k1_pay1 (k1_pay5 (iblk1 V c 0 ⟨n + 1, hn⟩) (iblk1 V c 1 ⟨n + 1, hn⟩)) (outsAt1_3 c n (Nat.lt_of_succ_lt hn))

/-- The running sum at a first point of an i: the point's term over zeros. -/
theorem outsAt1_2_reset (c : Dev nD) (t : Fin cfg1.N) (h0 : t.val % 16 = 0) :
    outsAt1_2 V c t.val t.isLt = k1_pay6 (iblk1 V c 0 t) (iblk1 V c 1 t) (k1_pay2 (F := F)) := by
  obtain ⟨n, hn⟩ := t
  cases n with
  | zero => exact rfl
  | succ n => exact (if_pos h0).trans rfl

/-- The running sum at any other point: the point's term over what the point before left. -/
theorem outsAt1_2_acc (c : Dev nD) (t : Fin cfg1.N) (h0 : ¬t.val % 16 = 0) :
    outsAt1_2 V c t.val t.isLt = k1_pay6 (iblk1 V c 0 t) (iblk1 V c 1 t) (outsAt1_2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The running count at a first point of an i. -/
theorem outsAt1_3_reset (c : Dev nD) (t : Fin cfg1.N) (h0 : t.val % 16 = 0) :
    outsAt1_3 V c t.val t.isLt = k1_pay1 (k1_pay5 (iblk1 V c 0 t) (iblk1 V c 1 t)) (k1_pay3 (F := F)) := by
  obtain ⟨n, hn⟩ := t
  cases n with
  | zero => exact rfl
  | succ n => exact (if_pos h0).trans rfl

/-- The running count at any other point. -/
theorem outsAt1_3_acc (c : Dev nD) (t : Fin cfg1.N) (h0 : ¬t.val % 16 = 0) :
    outsAt1_3 V c t.val t.isLt = k1_pay1 (k1_pay5 (iblk1 V c 0 t) (iblk1 V c 1 t)) (outsAt1_3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them (`V`); after the body at point
    `t` each input's buffer at its block, the sum's at the running sum and the count's at the running count;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1_2 V c t.val t.isLt
    | ⟨3, _⟩ => outsAt1_3 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1_2 V c t.val t.isLt := by dsimp only [dat1]
theorem after1_3 (c : Dev nD) (t : Fin cfg1.N) : (dat1 V c).after 3 t = outsAt1_3 V c t.val t.isLt := by dsimp only [dat1]

/-- The point before `t`. -/
abbrev prev1 (t : Fin cfg1.N) : Fin cfg1.N := ⟨t.val - 1, Nat.lt_of_le_of_lt (Nat.sub_le _ _) t.isLt⟩

/-- After a first point of an i the sum's buffer holds the point's term over zeros. -/
theorem after1_2_reset (c : Dev nD) (t : Fin cfg1.N) (h0 : t.val % 16 = 0) :
    (dat1 V c).after 2 t = k1_pay6 (iblk1 V c 0 t) (iblk1 V c 1 t) (k1_pay2 (F := F)) :=
  (after1_2 V c t).trans (outsAt1_2_reset V c t h0)
/-- After any other point it holds the point's term over what the point before left. -/
theorem after1_2_acc (c : Dev nD) (t : Fin cfg1.N) (h0 : ¬t.val % 16 = 0) :
    (dat1 V c).after 2 t = k1_pay6 (iblk1 V c 0 t) (iblk1 V c 1 t) ((dat1 V c).after 2 (prev1 t)) := by
  rw [after1_2, after1_2, outsAt1_2_acc V c t h0]
/-- After a first point of an i the count's buffer holds the point's count over zeros. -/
theorem after1_3_reset (c : Dev nD) (t : Fin cfg1.N) (h0 : t.val % 16 = 0) :
    (dat1 V c).after 3 t = k1_pay1 (k1_pay5 (iblk1 V c 0 t) (iblk1 V c 1 t)) (k1_pay3 (F := F)) :=
  (after1_3 V c t).trans (outsAt1_3_reset V c t h0)
/-- After any other point it holds the point's count over what the point before left. -/
theorem after1_3_acc (c : Dev nD) (t : Fin cfg1.N) (h0 : ¬t.val % 16 = 0) :
    (dat1 V c).after 3 t = k1_pay1 (k1_pay5 (iblk1 V c 0 t) (iblk1 V c 1 t)) ((dat1 V c).after 3 (prev1 t)) := by
  rw [after1_3, after1_3, outsAt1_3_acc V c t h0]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point that is not the first of its i the sum's current staging buffer holds what the body left at the
    point before: the point is not the first, the buffer was not written back between (write-backs happen after
    the last point of an i only), the window is never idle and uncut. -/
theorem before1_2_B (c : Dev nD) (t : Fin cfg1.N) (h0 : ¬t.val % 16 = 0) (d) :
    (dat1 V c).before 2 t d = outsAt1_2 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]
/-- The same for the count's buffer. -/
theorem before1_3_B (c : Dev nD) (t : Fin cfg1.N) (h0 : ¬t.val % 16 = 0) (d) :
    (dat1 V c).before 3 t d = outsAt1_3 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' memrefs hold their blocks; the closed form of the condition says which case
    the point is in; at a point that is not the first of its i each output's memref holds what the point before
    left; so the case's triple applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 16 = 0
  · rw [outsAt1_2_reset V c t h0, outsAt1_3_reset V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_0 t).mpr h0) (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_2_acc V c t h0, outsAt1_3_acc V c t h0]
    simp only [before1_2_B V c t h0, before1_3_B V c t h0]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h => h0 ((hcond1_0 t).mp h)) (iblk1 V c 0 t) (iblk1 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.Frame.lean ====
/-
  The run of the program with both regions' proof data in place, and its frame: every weakly fair execution terminates,
  nothing faults, and the two argument arrays end holding their launch contents (no host line writes them, the first
  region does not touch them, the second reads nothing of them).
-/
import proofs.«118121_j17016660426841_2_alg».proof.Proof.Run
import proofs.«118121_j17016660426841_2_alg».proof.Proof.R1Body
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's proof data at the contents it is entered from. -/
abbrev d1At (c : Dev nD) : Dat τ (Elt F) Unit ℕ (UR sig nD τ) ℕ cfg1 c := dat1 (Vin1 m) c

/-- The regions' outputs: the distance matrix and the arrays of partial sums and counts. -/
abbrev outsAll : Outs (F := F) := outsB m (d1At m)

/-- THE RUN, every unscoped buffer's final contents named. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = V9 m (outsAll m) c b) :=
  run_all m ρ (d1At m) (fun c w => A_eq1 (Vin1 m) c w) (fun _ _ => rfl) (fun _ _ => rfl) (fun _ _ => rfl) (fun _ _ => rfl)
    (fun c => body_obligation1 (Vin1 m) c)

/-- An unscoped TensorCore reference is among those whose final contents the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (mem_uc main_arg0 (by decide))).trans (V9_main_arg0 m (outsAll m) c),
     (h c (Proc.devRef .tc main_arg1) (mem_uc main_arg1 (by decide))).trans (V9_main_arg1 m (outsAll m) c)⟩) (run_named m ρ)

end Cert.KernelIdeal.Gen

end
-- ==== Proof.PayIdeal0.lean ====
import proofs.«118121_j17016660426841_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The cosine-distance kernel's payload read at an index, over the extended reals

Entry `(p, q)` of the distance block is one minus the inner product of row `p` of the first operand
block with row `q` of the second: both operands are contracted along their last axis, and the product
accumulates into zero.
-/

noncomputable section

open scoped BigOperators

namespace Cert.KernelIdeal.PayValue

open Cert.KernelIdeal Cert.KernelIdeal.Gen Idealize.ShloMosaic ValueIdx

/-- The contraction's dimension numbers: the last axis of each operand against the other's. -/
abbrev dotNT : DotDims S128x768 S128x768 S128x128 := dot_S128x768_S128x768_S128x128_1_1_0_0_n_n

/-- The left operand's row is the result's row. -/
theorem dotNT_lhs0 (j : S128x128.Idx) (c : dotNT.contr.Idx) : (dotNT.lhsIdx j c 0).val = (j 0).val := by
  unfold DotDims.lhsIdx
  rw [dif_neg (show ¬(0 : Fin S128x768.rank) ∈ dotNT.lhsBatch by decide),
    dif_pos (show (0 : Fin S128x768.rank) ∈ dotNT.lhsNonContracting by decide)]
  rfl

/-- The left operand's column is the contraction position. -/
theorem dotNT_lhs1 (j : S128x128.Idx) (c : dotNT.contr.Idx) : (dotNT.lhsIdx j c 1).val = (c ⟨0, by decide⟩).val :=
  dotNT.lhsIdx_val_of_single rfl j c

/-- The right operand's row is the result's column. -/
theorem dotNT_rhs0 (j : S128x128.Idx) (c : dotNT.contr.Idx) : (dotNT.rhsIdx j c 0).val = (j 1).val := by
  unfold DotDims.rhsIdx
  rw [dif_neg (show ¬(0 : Fin S128x768.rank) ∈ dotNT.rhsBatch by decide),
    dif_pos (show (0 : Fin S128x768.rank) ∈ dotNT.rhsNonContracting by decide)]
  rfl

/-- The right operand's column is the contraction position. -/
theorem dotNT_rhs1 (j : S128x128.Idx) (c : dotNT.contr.Idx) : (dotNT.rhsIdx j c 1).val = (c ⟨0, by decide⟩).val :=
  dotNT.rhsIdx_val_of_single rfl j c

/-- The product of a block with the transpose of another, accumulated into zero, at `(p, q)`: the inner product of
row `p` with row `q`. -/
theorem matmulNT_apply (x y : FVec Ideal S128x768 .bf16) (p q : Fin 128) :
    matmul (F := Ideal) dotNT none x y (constant (F := Ideal) S128x128 .f32 0x00000000#32) (ix2 p q)
      = ∑ k : Fin 768, x (ix2 p k) * y (ix2 q k) := by
  simp only [matmul]
  rw [Ideal.matmul_constant_zero_apply, ← Equiv.sum_comp (contrEquiv1 dotNT 768 rfl rfl).symm]
  refine Finset.sum_congr rfl fun k _ => ?_
  have hk := contrEquiv1_symm_val dotNT 768 rfl rfl k
  have el : dotNT.lhsIdx (ix2 p q) ((contrEquiv1 dotNT 768 rfl rfl).symm k) = ix2 p k := funext fun a => Fin.ext (by
    match a with
    | ⟨0, _⟩ => exact dotNT_lhs0 _ _
    | ⟨1, _⟩ => exact (dotNT_lhs1 _ _).trans hk)
  have er : dotNT.rhsIdx (ix2 p q) ((contrEquiv1 dotNT 768 rfl rfl).symm k) = ix2 q k := funext fun a => Fin.ext (by
    match a with
    | ⟨0, _⟩ => exact dotNT_rhs0 _ _
    | ⟨1, _⟩ => exact (dotNT_rhs1 _ _).trans hk)
  rw [el, er]

/-- The word `0x3F800000` is the number one. -/
theorem ofBits_one_f32 : Ideal.ofBits .f32 0x3F800000#32 = 1 := by
  simp [Ideal.ofBits, Ideal.ieee, -EReal.coe_mul]; norm_num

/-- Entry `(p, q)` of the distance block: one minus the inner product of row `p` of the first operand with row `q`
of the second. -/
theorem k0_pay1_apply (v0 v2 : Vec Ideal S128x768 .bf16) (p q : Fin 128) :
    k0_pay1 (F := Ideal) v0 v2 (ix2 p q)
      = Ideal.ofBits .f32 0x3F800000#32 - ∑ k : Fin 768, v0 (ix2 p k) * v2 (ix2 q k) := by
  unfold k0_pay1
  rw [subf_apply, broadcast_apply, shapeCast_self, shapeCast_self]
  exact congrArg (Ideal.ofBits .f32 0x3F800000#32 - ·) (matmulNT_apply v0 v2 p q)

/-- The same with the constant written as the number one. -/
theorem k0_pay1_apply_one (v0 v2 : Vec Ideal S128x768 .bf16) (p q : Fin 128) :
    k0_pay1 (F := Ideal) v0 v2 (ix2 p q) = 1 - ∑ k : Fin 768, v0 (ix2 p k) * v2 (ix2 q k) := by
  rw [k0_pay1_apply, ofBits_one_f32]

end Cert.KernelIdeal.PayValue

end
-- ==== Proof.DistValue.lean ====
import proofs.«118121_j17016660426841_2_alg».proof.Proof.R0Body
import proofs.«118121_j17016660426841_2_alg».proof.Proof.PayIdeal0
import Idealize.ShloMosaic.Lib.Pipeline.Value
import Idealize.ShloMosaic.Lib.ValueIdx

/-!
# The distance array after the first region, as one function of the normalised matrix

The first region walks a 4 × 4 grid; at point (I, J) it writes block (I, J) of the 512 × 512 distance array from
row block I and row block J of the 512 × 768 matrix `X`. Here the sixteen blocks are read as one array: entry
`(p, q)` is `1 - ∑ k, X[p, k] * X[q, k]`. The steps: how the three windows' block indices are related over the grid
(decided over its sixteen points); each input block read at coordinates inside it; what a point writes back, as the
block of the closed form; which entries a point's block holds; every entry is in some point's block.
-/

noncomputable section

open scoped BigOperators

namespace Cert.KernelIdeal.DistValue

open Cert.KernelIdeal Cert.KernelIdeal.Gen Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The closed form -/

/-- The matrix as the region finds it, as a function of its two coordinates. -/
abbrev mat (c : Dev nD) : S512x768.Idx → EReal := V c main_v5

/-- The distance array after the region's sixteen points, as a function of its two coordinates. -/
abbrev dist (c : Dev nD) : S512x512.Idx → EReal := (dat0 (F := Ideal) V c).arrAt 2 cfg0.N

/-- The distance array of a matrix `X`: entry `(p, q)` is one minus the inner product of rows `p` and `q`. -/
def G (X : S512x768.Idx → EReal) : S512x512.Idx → EReal := fun i =>
  1 - ∑ k : Fin 768, X (ix2 (⟨(i 0).val, (i 0).isLt⟩ : Fin 512) k) * X (ix2 (⟨(i 1).val, (i 1).isLt⟩ : Fin 512) k)

theorem G_apply (X : S512x768.Idx → EReal) (p q : Fin 512) :
    G X (ix2 p q) = 1 - ∑ k : Fin 768, X (ix2 p k) * X (ix2 q k) := rfl

/-! ## The index maps over the grid -/

/-- At every point the first input window sits on the output's block row, the second on the output's block
column, both at block column zero; the output's block indices are below four. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block of the output is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-! ## The input blocks at coordinates -/

/-- Row `p` of the first window's block at point `t` is row `128 I + p` of the matrix, `I` the output's block row. -/
theorem iblk0_0_apply (c : Dev nD) (t : Fin cfg0.N) (p : Fin 128) (k : Fin 768) (P : Fin 512)
    (hP : P.val = win0_2.index t (0 : Fin 2) * 128 + p.val) :
    (iblk0 V c 0 t : Vec Ideal S128x768 .bf16) (ix2 p k) = (V c main_v5 : S512x768.Idx → EReal) (ix2 P k) := by
  obtain ⟨e0, e1, -, -, -, -⟩ := idx_facts t
  unfold iblk0
  rw [View.read_apply]
  show V c main_v5 _ = V c main_v5 _
  congr 1
  funext a
  apply Fin.ext
  match a with
  | ⟨0, _⟩ => show win0_0.index t (0 : Fin 2) * 128 + 1 * p.val = P.val; rw [e0, hP]; omega
  | ⟨1, _⟩ => show win0_0.index t (1 : Fin 2) * 768 + 1 * k.val = k.val; rw [e1]; omega

/-- Row `q` of the second window's block at point `t` is row `128 J + q` of the matrix, `J` the output's block column. -/
theorem iblk0_1_apply (c : Dev nD) (t : Fin cfg0.N) (q : Fin 128) (k : Fin 768) (Q : Fin 512)
    (hQ : Q.val = win0_2.index t (1 : Fin 2) * 128 + q.val) :
    (iblk0 V c 1 t : Vec Ideal S128x768 .bf16) (ix2 q k) = (V c main_v5 : S512x768.Idx → EReal) (ix2 Q k) := by
  obtain ⟨-, -, e2, e3, -, -⟩ := idx_facts t
  unfold iblk0
  rw [View.read_apply]
  show V c main_v5 _ = V c main_v5 _
  congr 1
  funext a
  apply Fin.ext
  match a with
  | ⟨0, _⟩ => show win0_1.index t (0 : Fin 2) * 128 + 1 * q.val = Q.val; rw [e2, hQ]; omega
  | ⟨1, _⟩ => show win0_1.index t (1 : Fin 2) * 768 + 1 * k.val = k.val; rw [e3]; omega

/-! ## What a point writes back -/

/-- What point `t` writes back is block `t` of the closed form of the matrix as the region finds it. -/
theorem flushed2_eq (c : Dev nD) (t : Fin cfg0.N) :
    (dat0 (F := Ideal) V c).flushed 2 t = ((cfg0.win 2).blk t).view.read (Elt Ideal) (G (V c main_v5)) := by
  show (cfg0.win 2).cut (grid0.coords t) ((dat0 V c).after 2 t) = _
  rw [after0_2]
  unfold out0_2
  rw [View.canon_unit_zero hz2]
  simp only [View.ld_unit_zero (S := S128x768) hz2]
  obtain ⟨-, -, -, -, b0, b1⟩ := idx_facts t
  funext j
  have hp : (j 0).val < 128 := (j 0).isLt
  have hq : (j 1).val < 128 := (j 1).isLt
  have hx : (cfg0.win 2).xinj (grid0.coords t) j = ix2 (⟨(j 0).val, hp⟩ : Fin 128) (⟨(j 1).val, hq⟩ : Fin 128) :=
    funext fun a => by
      match a with
      | ⟨0, _⟩ => rfl
      | ⟨1, _⟩ => rfl
  obtain ⟨P, hP⟩ : ∃ P : Fin 512, P.val = win0_2.index t (0 : Fin 2) * 128 + (j 0).val := ⟨⟨_, by omega⟩, rfl⟩
  obtain ⟨Q, hQ⟩ : ∃ Q : Fin 512, Q.val = win0_2.index t (1 : Fin 2) * 128 + (j 1).val := ⟨⟨_, by omega⟩, rfl⟩
  have he : ((cfg0.win 2).blk t).view.emb j = ix2 P Q :=
    funext fun a => Fin.ext (by
      match a with
      | ⟨0, _⟩ => show win0_2.index t (0 : Fin 2) * 128 + 1 * (j 0).val = P.val; omega
      | ⟨1, _⟩ => show win0_2.index t (1 : Fin 2) * 128 + 1 * (j 1).val = Q.val; omega)
  rw [View.read_apply]
  show k0_pay1 (iblk0 V c 0 t) (iblk0 V c 1 t) ((cfg0.win 2).xinj (grid0.coords t) j)
    = G (V c main_v5) (((cfg0.win 2).blk t).view.emb j)
  rw [hx, he, k0_pay1_apply_one, G_apply]
  refine congrArg (1 - ·) (Finset.sum_congr rfl fun k _ => ?_)
  rw [iblk0_0_apply V c t ⟨(j 0).val, hp⟩ k P hP, iblk0_1_apply V c t ⟨(j 1).val, hq⟩ k Q hQ]

/-! ## Which entries a point's block holds, and that every entry is held -/

/-- An entry is in point `t`'s block iff each coordinate is in the block's range on its axis. -/
theorem mem_blk2 (t : Fin cfg0.N) (i : S512x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v6).slice (win0_2.rect t)).set ↔ _
  rw [View.set_slice_whole, Rect.mem_set_unit]
  exact Iff.rfl

/-- Entry `(p, q)` is in the block of the point whose output block is `(p / 128, q / 128)`. -/
theorem covered2 (i : S512x512.Idx) :
    ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk2]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-! ## The array after the sixteen points -/

/-- The distance array after the region is the closed form of the matrix the region found. -/
theorem dist_final_fun (c : Dev nD) : (dat0 (F := Ideal) V c).arrAt 2 cfg0.N = G (V c main_v5) :=
  (dat0 (F := Ideal) V c).arrAt_eq_of_cover 2 (G (V c main_v5)) (fun t _ => flushed2_eq V c t) covered2

/-- Entry `(p, q)` of the distance array after the region: one minus the inner product of rows `p` and `q` of the
matrix the region found. -/
theorem dist_final (c : Dev nD) (p q : Fin 512) :
    dist V c (ix2 p q) = 1 - ∑ k : Fin 768, mat V c (ix2 p k) * mat V c (ix2 q k) :=
  (congrFun (dist_final_fun V c) (ix2 p q)).trans (G_apply (V c main_v5) p q)

end Cert.KernelIdeal.DistValue

end
-- ==== Proof.PayIdeal1.lean ====
import proofs.«118121_j17016660426841_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The triplet kernel's payloads read at an index, over the extended reals

Every payload of the second kernel is read here at one coordinate of its result, as a formula in the
entries of the blocks it was computed from: the hinge brick `max (a[i,p] - c[i,q]) 0`, its total over
the brick, the count of its entries above the threshold, and the two zero fills.
-/

noncomputable section

open scoped BigOperators

namespace Cert.KernelIdeal.PayValue

open Cert.KernelIdeal Cert.KernelIdeal.Gen Idealize.ShloMosaic ValueIdx

/-! ## Layout steps at literal coordinates -/

/-- A trailing unit axis added to a matrix: the `[m, n, 1]` view reads `(i, a, 0)` at `(i, a)`. -/
theorem shapeCast_ab_ab1_apply {α : Type} {m n : ℕ} (x : (⟨2, ![m, n]⟩ : Shape).Idx → α)
    (h : (⟨2, ![m, n]⟩ : Shape).ShapeCasts ⟨3, ![m, n, 1]⟩) (i : Fin m) (a : Fin n) (z : Fin 1) :
    shapeCast ⟨3, ![m, n, 1]⟩ x h (ix3 i a z) = x (ix2 i a) :=
  shapeCast_apply x h _ _ (by
    have hz : z.val = 0 := by omega
    rw [Shape.rowMajor_val_three, Shape.rowMajor_val_two]
    show i.val * n + a.val = (i.val * n + a.val) * 1 + z.val
    rw [hz, Nat.mul_one, Nat.add_zero])

/-- A middle unit axis added to a matrix: the `[m, 1, n]` view reads `(i, 0, b)` at `(i, b)`. -/
theorem shapeCast_ab_a1b_apply {α : Type} {m n : ℕ} (x : (⟨2, ![m, n]⟩ : Shape).Idx → α)
    (h : (⟨2, ![m, n]⟩ : Shape).ShapeCasts ⟨3, ![m, 1, n]⟩) (i : Fin m) (z : Fin 1) (b : Fin n) :
    shapeCast ⟨3, ![m, 1, n]⟩ x h (ix3 i z b) = x (ix2 i b) :=
  shapeCast_apply x h _ _ (by
    have hz : z.val = 0 := by omega
    rw [Shape.rowMajor_val_three, Shape.rowMajor_val_two]
    show i.val * n + b.val = (i.val * 1 + z.val) * n + b.val
    rw [hz, Nat.mul_one, Nat.add_zero])

/-! ## The zero fills -/

theorem k1_pay2_apply (idx : S1x1x128.Idx) : k1_pay2 (F := Ideal) idx = 0 :=
  Ideal.ofBits_zero_f32

theorem k1_pay3_apply (idx : S1x1x128.Idx) : k1_pay3 (F := Ideal) idx = 0 :=
  Ideal.ofBits_zero_f32

/-! ## The hinge brick -/

/-- Entry `(i, a, b)` of the brick is the hinge of row `i`'s entry `a` of the first block against its
entry `b` of the second. -/
theorem k1_pay4_apply (v5 v7 : Vec Ideal S64x128 .f32) (i : Fin 64) (a b : Fin 128) :
    k1_pay4 (F := Ideal) v5 v7 (ix3 i a b) = max (v5 (ix2 i a) - v7 (ix2 i b)) 0 := by
  unfold k1_pay4
  rw [maximumf_apply, subf_apply, broadcast_apply, Ideal.ofBits_def, Ideal.ofBits_zero_f32, shapeCast_self, shapeCast_self,
    broadcastTo_apply _ broadcasts_S64x128x1_S64x128x128 (ix3 i a b) (ix3 i a (0 : Fin 1))
      (fun ax => by match ax with | ⟨0, _⟩ => rfl | ⟨1, _⟩ => rfl | ⟨2, _⟩ => rfl),
    broadcastTo_apply _ broadcasts_S64x1x128_S64x128x128 (ix3 i a b) (ix3 i (0 : Fin 1) b)
      (fun ax => by match ax with | ⟨0, _⟩ => rfl | ⟨1, _⟩ => rfl | ⟨2, _⟩ => rfl),
    shapeCast_ab_ab1_apply, shapeCast_ab_a1b_apply]

/-! ## The three sums over the brick -/

/-- The sum over the brick's first axis, at `(a, b)`. -/
theorem red0_apply (x : FVec Ideal S64x128x128 .f32) (a b : Fin 128) :
    multiReduction (F := Ideal) .add [0] S128x128 x 0x00000000#32 reduces_S64x128x128_S128x128 (.inl rfl) rfl (ix2 a b)
      = ∑ i : Fin 64, x (ix3 i a b) := by
  refine (Ideal.multiReduction_add_single x _ reduces_S64x128x128_S128x128 _ _ (ix2 a b)).trans ?_
  refine Finset.sum_congr rfl fun i _ => congrArg x (funext fun c => Fin.ext ?_)
  match c with
  | ⟨0, _⟩ => rfl
  | ⟨1, _⟩ => rfl
  | ⟨2, _⟩ => rfl

/-- The sum along a matrix's rows, at `a`. -/
theorem red1_apply (y : FVec Ideal S128x128 .f32) (a : Fin 128) :
    multiReduction (F := Ideal) .add [1] S128 y 0x00000000#32 reduces_S128x128_S128 (.inl rfl) rfl (ix1 a)
      = ∑ b : Fin 128, y (ix2 a b) := by
  refine (Ideal.multiReduction_add_single y _ reduces_S128x128_S128 _ _ (ix1 a)).trans ?_
  refine Finset.sum_congr rfl fun b _ => congrArg y (funext fun c => Fin.ext ?_)
  match c with
  | ⟨0, _⟩ => rfl
  | ⟨1, _⟩ => rfl

/-- A vector viewed as a column reads `(a, 0)` at `a`. -/
theorem shapeCast_a_a1_apply {α : Type} {n : ℕ} (x : (⟨1, ![n]⟩ : Shape).Idx → α)
    (h : (⟨1, ![n]⟩ : Shape).ShapeCasts ⟨2, ![n, 1]⟩) (a : Fin n) (z : Fin 1) :
    shapeCast ⟨2, ![n, 1]⟩ x h (ix2 a z) = x (ix1 a) :=
  shapeCast_apply x h _ _ (by
    have hz : z.val = 0 := by omega
    rw [Shape.rowMajor_val_two, Shape.rowMajor_val_one]
    show a.val = a.val * 1 + z.val
    rw [hz, Nat.mul_one, Nat.add_zero])

/-- The sum down a column, at its one entry. -/
theorem red2_apply (w : FVec Ideal S128x1 .f32) (z : Fin 1) :
    multiReduction (F := Ideal) .add [0] S1 w 0x00000000#32 reduces_S128x1_S1 (.inl rfl) rfl (ix1 z)
      = ∑ a : Fin 128, w (ix2 a z) := by
  refine (Ideal.multiReduction_add_single w _ reduces_S128x1_S1 _ _ (ix1 z)).trans ?_
  refine Finset.sum_congr rfl fun a _ => congrArg w (funext fun c => Fin.ext ?_)
  match c with
  | ⟨0, _⟩ => rfl
  | ⟨1, _⟩ => rfl

/-- The position `[0, 0]` of a one-by-one matrix. -/
theorem extractAt_00 {α : Type} (t : S1x1.Idx → α) :
    extractAt ![0, 0] t inpos_S1x1_p0_0 = t (ix2 (0 : Fin 1) (0 : Fin 1)) :=
  congrArg t (funext fun c => Fin.ext (by
    match c with
    | ⟨0, _⟩ => rfl
    | ⟨1, _⟩ => rfl))

/-- The three reductions in the printed order — over the brick's first axis, then along the rows, then down the
column — leave, in the one entry that remains, the sum of the whole brick. -/
theorem total_apply (x : FVec Ideal S64x128x128 .f32) :
    extractAt ![0, 0]
      (shapeCast S1x1
        (multiReduction (F := Ideal) .add [0] S1
          (shapeCast S128x1
            (multiReduction (F := Ideal) .add [1] S128
              (multiReduction (F := Ideal) .add [0] S128x128 x 0x00000000#32 reduces_S64x128x128_S128x128 (.inl rfl) rfl)
              0x00000000#32 reduces_S128x128_S128 (.inl rfl) rfl)
            shapeCasts_S128_S128x1)
          0x00000000#32 reduces_S128x1_S1 (.inl rfl) rfl)
        shapeCasts_S1_S1x1) inpos_S1x1_p0_0
      = ∑ a : Fin 128, ∑ b : Fin 128, ∑ i : Fin 64, x (ix3 i a b) := by
  refine (extractAt_00 _).trans ?_
  refine (shapeCast_a_1a_apply _ shapeCasts_S1_S1x1 (0 : Fin 1) (0 : Fin 1)).trans ?_
  refine (red2_apply _ 0).trans ?_
  refine Finset.sum_congr rfl fun a _ => ?_
  refine (shapeCast_a_a1_apply _ shapeCasts_S128_S128x1 a 0).trans ?_
  refine (red1_apply _ a).trans ?_
  exact Finset.sum_congr rfl fun b _ => red0_apply x a b

/-! ## The running total of the hinge -/

/-- Every entry of the new total: the old total's entry plus the sum of the whole hinge brick. -/
theorem k1_pay6_idx (v5 v7 : Vec Ideal S64x128 .f32) (v30 : Vec Ideal S1x1x128 .f32) (j : S1x1x128.Idx) :
    k1_pay6 (F := Ideal) v5 v7 v30 j
      = v30 j + ∑ a : Fin 128, ∑ b : Fin 128, ∑ i : Fin 64, max (v5 (ix2 i a) - v7 (ix2 i b)) 0 := by
  unfold k1_pay6
  rw [addf_apply, broadcast_apply, shapeCast_self]
  refine congrArg (v30 j + ·) ?_
  refine (total_apply _).trans ?_
  exact Finset.sum_congr rfl fun a _ => Finset.sum_congr rfl fun b _ => Finset.sum_congr rfl fun i _ =>
    k1_pay4_apply v5 v7 i a b

/-- Lane `l` of the new total: the old total's lane `l` plus the sum of the whole hinge brick. -/
theorem k1_pay6_apply (v5 v7 : Vec Ideal S64x128 .f32) (v30 : Vec Ideal S1x1x128 .f32) (l : Fin 128) :
    k1_pay6 (F := Ideal) v5 v7 v30 (ix3 (0 : Fin 1) (0 : Fin 1) l)
      = v30 (ix3 (0 : Fin 1) (0 : Fin 1) l)
        + ∑ a : Fin 128, ∑ b : Fin 128, ∑ i : Fin 64, max (v5 (ix2 i a) - v7 (ix2 i b)) 0 :=
  k1_pay6_idx v5 v7 v30 _

/-! ## The count of hinge entries above the threshold -/

/-- A strict comparison's one-bit word, widened to thirty-two bits and converted to a float, is the comparison's
indicator: one where it holds, zero where it does not. -/
theorem indicator_eq (x e : EReal) :
    FloatOps.sitofp (F := Ideal) .f32 ((FloatOps.cmpf (F := Ideal) (φ := .f32) .ogt x e).setWidth 32)
      = if x > e then (1 : EReal) else 0 := by
  rw [Ideal.cmpf_def]
  show ((((Ideal.cmp .ogt x e).setWidth 32).toInt : ℝ) : EReal) = _
  by_cases h : e < x
  · have hb : Ideal.cmp .ogt x e = 1#1 := by simp [Ideal.cmp, h]
    have hi : ((1#1 : BitVec 1).setWidth 32).toInt = 1 := by decide
    rw [hb, hi, if_pos h]; simp
  · have hb : Ideal.cmp .ogt x e = 0#1 := by simp [Ideal.cmp, h]
    have hi : ((0#1 : BitVec 1).setWidth 32).toInt = 0 := by decide
    rw [hb, hi, if_neg h]; simp

/-- The one entry of the count: the number of entries of the hinge brick above the threshold, as a sum of indicators. -/
theorem k1_pay5_apply (v5 v7 : Vec Ideal S64x128 .f32) :
    extractAt ![0, 0] (k1_pay5 (F := Ideal) v5 v7) inpos_S1x1_p0_0
      = ∑ a : Fin 128, ∑ b : Fin 128, ∑ i : Fin 64,
          (if max (v5 (ix2 i a) - v7 (ix2 i b)) 0 > Ideal.ofBits .f32 0x322BCC77#32 then (1 : EReal) else 0) := by
  unfold k1_pay5
  refine (total_apply _).trans ?_
  refine Finset.sum_congr rfl fun a _ => Finset.sum_congr rfl fun b _ => Finset.sum_congr rfl fun i _ => ?_
  rw [sitofp_apply, extui_apply, cmpf_apply, broadcast_apply, k1_pay4_apply]
  exact indicator_eq _ _

/-- Every entry of the new count, for any one-by-one increment: the old count's entry plus the increment. -/
theorem k1_pay1_idx (v29 : FVec Ideal S1x1 .f32) (v36 : Vec Ideal S1x1x128 .f32) (j : S1x1x128.Idx) :
    k1_pay1 (F := Ideal) v29 v36 j = v36 j + extractAt ![0, 0] v29 inpos_S1x1_p0_0 := by
  unfold k1_pay1
  rw [addf_apply, broadcast_apply, shapeCast_self]

/-- Lane `l` of the new count, for any one-by-one increment: the old count's lane `l` plus the increment. -/
theorem k1_pay1_apply (v29 : FVec Ideal S1x1 .f32) (v36 : Vec Ideal S1x1x128 .f32) (l : Fin 128) :
    k1_pay1 (F := Ideal) v29 v36 (ix3 (0 : Fin 1) (0 : Fin 1) l)
      = v36 (ix3 (0 : Fin 1) (0 : Fin 1) l) + extractAt ![0, 0] v29 inpos_S1x1_p0_0 :=
  k1_pay1_idx v29 v36 _

/-- Every entry of the new count: the old count's entry plus the number of hinge entries above the threshold. -/
theorem k1_pay1_pay5_idx (v5 v7 : Vec Ideal S64x128 .f32) (v36 : Vec Ideal S1x1x128 .f32) (j : S1x1x128.Idx) :
    k1_pay1 (F := Ideal) (k1_pay5 v5 v7) v36 j
      = v36 j + ∑ a : Fin 128, ∑ b : Fin 128, ∑ i : Fin 64,
            (if max (v5 (ix2 i a) - v7 (ix2 i b)) 0 > Ideal.ofBits .f32 0x322BCC77#32 then (1 : EReal) else 0) := by
  rw [k1_pay1_idx, k1_pay5_apply]

/-- Lane `l` of the new count: the old count's lane `l` plus the number of hinge entries above the threshold. -/
theorem k1_pay1_pay5_apply (v5 v7 : Vec Ideal S64x128 .f32) (v36 : Vec Ideal S1x1x128 .f32) (l : Fin 128) :
    k1_pay1 (F := Ideal) (k1_pay5 v5 v7) v36 (ix3 (0 : Fin 1) (0 : Fin 1) l)
      = v36 (ix3 (0 : Fin 1) (0 : Fin 1) l)
        + ∑ a : Fin 128, ∑ b : Fin 128, ∑ i : Fin 64,
            (if max (v5 (ix2 i a) - v7 (ix2 i b)) 0 > Ideal.ofBits .f32 0x322BCC77#32 then (1 : EReal) else 0) := by
  rw [k1_pay1_apply, k1_pay5_apply]

end Cert.KernelIdeal.PayValue

end
-- ==== Proof.SumValue.lean ====
/-
  What the second region leaves in its two result arrays, over the extended reals. The grid is 8 x 4 x 4 in
  row-major order: the point numbered 16 I + 4 J + K reads rows 64 I … 64 I + 63 of both input arrays, columns
  128 J … of the first and 128 K … of the second, and adds to a running sum (and a running count) the terms of that
  64 x 128 x 128 brick. The running values start from zero at the first of the 16 points of each I and are written
  to row I of the results after the last; so row I ends holding the 16 bricks' terms added up, which is the sum over
  the 4 x 4 pairs (J, K) of the bricks' sums. Only additions of extended reals are re-associated; nothing is cancelled.
-/
import proofs.«118121_j17016660426841_2_alg».proof.Proof.R1Body
import proofs.«118121_j17016660426841_2_alg».proof.Proof.PayIdeal1

set_option maxRecDepth 16384

noncomputable section

open scoped BigOperators

namespace Cert.KernelIdeal.SumValue

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat)

/-- Where each window's block lies at a point: the grid is 8 x 4 x 4 in row-major order. -/
theorem index1_0 : ∀ t : Fin cfg1.N, win1_0.index t 0 = t.val / 16 ∧ win1_0.index t 1 = t.val / 4 % 4 :=
  (by decide +kernel : ∀ t : Fin grid1.N, win1_0.index t 0 = t.val / 16 ∧ win1_0.index t 1 = t.val / 4 % 4)
theorem index1_1 : ∀ t : Fin cfg1.N, win1_1.index t 0 = t.val / 16 ∧ win1_1.index t 1 = t.val % 4 :=
  (by decide +kernel : ∀ t : Fin grid1.N, win1_1.index t 0 = t.val / 16 ∧ win1_1.index t 1 = t.val % 4)
theorem index1_2 : ∀ t : Fin cfg1.N, win1_2.index t 0 = t.val / 16 ∧ win1_2.index t 1 = 0 ∧ win1_2.index t 2 = 0 :=
  (by decide +kernel : ∀ t : Fin grid1.N, win1_2.index t 0 = t.val / 16 ∧ win1_2.index t 1 = 0 ∧ win1_2.index t 2 = 0)
theorem index1_3 : ∀ t : Fin cfg1.N, win1_3.index t 0 = t.val / 16 ∧ win1_3.index t 1 = 0 ∧ win1_3.index t 2 = 0 :=
  (by decide +kernel : ∀ t : Fin grid1.N, win1_3.index t 0 = t.val / 16 ∧ win1_3.index t 1 = 0 ∧ win1_3.index t 2 = 0)

variable (V : (c : Dev nD) → (b : Ref sig .tc) → Buf (Elt Ideal) ((c : Thread nD τ).loc b)) (c : Dev nD)

/-- The two input arrays of the region and its two result arrays after it, as arrays of extended reals. -/
abbrev Am : S512x512.Idx → EReal := V c main_v21
abbrev Cm : S512x512.Idx → EReal := V c main_v23
abbrev sumsArr : S8x1x128.Idx → EReal := (dat1 (F := Ideal) V c).arrAt 2 cfg1.N
abbrev countsArr : S8x1x128.Idx → EReal := (dat1 (F := Ideal) V c).arrAt 3 cfg1.N

/-- The two input blocks at a point, as 64 x 128 matrices of extended reals. -/
abbrev blkA (t : Fin cfg1.N) : Vec Ideal S64x128 .f32 := iblk1 (F := Ideal) V c 0 t
abbrev blkC (t : Fin cfg1.N) : Vec Ideal S64x128 .f32 := iblk1 (F := Ideal) V c 1 t

/-- The first input's block at a point is the rows of i's block and the columns of j's block of its array. -/
theorem blkA_apply (t : Fin cfg1.N) (i : Fin 64) (a : Fin 128) (r s : Fin 512)
    (hr : r.val = 64 * (t.val / 16) + i.val) (hs : s.val = 128 * (t.val / 4 % 4) + a.val) :
    blkA V c t (ix2 i a) = Am V c (ix2 r s) := by
  unfold blkA iblk1
  rw [View.read_apply]
  show V c main_v21 _ = V c main_v21 _
  congr 1
  funext d
  apply Fin.ext
  match d with
  | ⟨0, _⟩ =>
    show win1_0.index t 0 * 64 + 1 * i.val = r.val
    rw [(index1_0 t).1, hr]; omega
  | ⟨1, _⟩ =>
    show win1_0.index t 1 * 128 + 1 * a.val = s.val
    rw [(index1_0 t).2, hs]; omega

/-- The second input's block: the rows of i's block and the columns of k's block. -/
theorem blkC_apply (t : Fin cfg1.N) (i : Fin 64) (b : Fin 128) (r s : Fin 512)
    (hr : r.val = 64 * (t.val / 16) + i.val) (hs : s.val = 128 * (t.val % 4) + b.val) :
    blkC V c t (ix2 i b) = Cm V c (ix2 r s) := by
  unfold blkC iblk1
  rw [View.read_apply]
  show V c main_v23 _ = V c main_v23 _
  congr 1
  funext d
  apply Fin.ext
  match d with
  | ⟨0, _⟩ =>
    show win1_1.index t 0 * 64 + 1 * i.val = r.val
    rw [(index1_1 t).1, hr]; omega
  | ⟨1, _⟩ =>
    show win1_1.index t 1 * 128 + 1 * b.val = s.val
    rw [(index1_1 t).2, hs]; omega

/-! ## The running sum and count inside one i -/

/-- A point's term of the sum: over its 64 x 128 x 128 brick, the positive parts of the differences. -/
def brickS (n : ℕ) : EReal :=
  if h : n < cfg1.N then
    ∑ a : Fin 128, ∑ b : Fin 128, ∑ i : Fin 64, max (blkA V c ⟨n, h⟩ (ix2 i a) - blkC V c ⟨n, h⟩ (ix2 i b) : EReal) 0
  else 0

/-- A point's term of the count: how many of them exceed the threshold. -/
def brickC (n : ℕ) : EReal :=
  if h : n < cfg1.N then
    ∑ a : Fin 128, ∑ b : Fin 128, ∑ i : Fin 64,
      (if max (blkA V c ⟨n, h⟩ (ix2 i a) - blkC V c ⟨n, h⟩ (ix2 i b) : EReal) 0 > Ideal.ofBits .f32 0x322BCC77#32
        then (1 : EReal) else 0)
  else 0

/-- After position `j` of the run of 16 points of one i, the sum's buffer holds, at every index, the terms of the
    points so far added up from zero. -/
theorem outsAt1_2_run (q j : ℕ) (hj : j < 16) (h : 16 * q + j < cfg1.N) (idx : S1x1x128.Idx) :
    outsAt1_2 (F := Ideal) V c (16 * q + j) h idx = 0 + ∑ s ∈ Finset.range (j + 1), brickS V c (16 * q + s) := by
  refine (congrFun (Pipeline.eq_accAt (fun n h => outsAt1_2 (F := Ideal) V c n h) 16
      (fun n h => k1_pay6 (F := Ideal) (iblk1 V c 0 ⟨n, h⟩) (iblk1 V c 1 ⟨n, h⟩) (k1_pay2 (F := Ideal)))
      (fun n h acc => k1_pay6 (F := Ideal) (iblk1 V c 0 ⟨n, h⟩) (iblk1 V c 1 ⟨n, h⟩) acc)
      (fun n h h0 => outsAt1_2_reset V c ⟨n, h⟩ h0)
      (fun n h hne => outsAt1_2_acc V c ⟨n + 1, h⟩ hne) q j hj h) idx).trans ?_
  exact Pipeline.accAt_add_apply _ _ (fun _ => (0 : EReal)) (fun n _ => brickS V c n) (16 * q) 15
    (fun hb i => by
      refine (k1_pay6_idx _ _ _ i).trans ?_
      rw [k1_pay2_apply]; unfold brickS; rw [dif_pos hb])
    (fun n hn acc i _ _ => by
      refine (k1_pay6_idx _ _ _ i).trans ?_
      unfold brickS; rw [dif_pos hn])
    j (by omega) h idx

/-- The same for the count's buffer. -/
theorem outsAt1_3_run (q j : ℕ) (hj : j < 16) (h : 16 * q + j < cfg1.N) (idx : S1x1x128.Idx) :
    outsAt1_3 (F := Ideal) V c (16 * q + j) h idx = 0 + ∑ s ∈ Finset.range (j + 1), brickC V c (16 * q + s) := by
  refine (congrFun (Pipeline.eq_accAt (fun n h => outsAt1_3 (F := Ideal) V c n h) 16
      (fun n h => k1_pay1 (F := Ideal) (k1_pay5 (iblk1 V c 0 ⟨n, h⟩) (iblk1 V c 1 ⟨n, h⟩)) (k1_pay3 (F := Ideal)))
      (fun n h acc => k1_pay1 (F := Ideal) (k1_pay5 (iblk1 V c 0 ⟨n, h⟩) (iblk1 V c 1 ⟨n, h⟩)) acc)
      (fun n h h0 => outsAt1_3_reset V c ⟨n, h⟩ h0)
      (fun n h hne => outsAt1_3_acc V c ⟨n + 1, h⟩ hne) q j hj h) idx).trans ?_
  exact Pipeline.accAt_add_apply _ _ (fun _ => (0 : EReal)) (fun n _ => brickC V c n) (16 * q) 15
    (fun hb i => by
      refine (k1_pay1_pay5_idx _ _ _ i).trans ?_
      rw [k1_pay3_apply]; unfold brickC; rw [dif_pos hb])
    (fun n hn acc i _ _ => by
      refine (k1_pay1_pay5_idx _ _ _ i).trans ?_
      unfold brickC; rw [dif_pos hn])
    j (by omega) h idx

/-! ## From the blocks to the arrays -/

/-- At the last point of an i the sum's buffer holds the whole run's terms. -/
theorem outsAt1_2_flush (t : Fin cfg1.N) (h15 : t.val % 16 = 15) (idx : S1x1x128.Idx) :
    outsAt1_2 (F := Ideal) V c t.val t.isLt idx = 0 + ∑ s ∈ Finset.range 16, brickS V c (16 * (t.val / 16) + s) := by
  have e : 16 * (t.val / 16) + 15 = t.val := by omega
  have same : ∀ (u : ℕ) (hu : u < cfg1.N), u = t.val → outsAt1_2 (F := Ideal) V c u hu = outsAt1_2 V c t.val t.isLt :=
    fun u hu e => by subst e; rfl
  rw [← same _ (by rw [e]; exact t.isLt) e]
  exact outsAt1_2_run V c (t.val / 16) 15 (by norm_num) _ idx

theorem outsAt1_3_flush (t : Fin cfg1.N) (h15 : t.val % 16 = 15) (idx : S1x1x128.Idx) :
    outsAt1_3 (F := Ideal) V c t.val t.isLt idx = 0 + ∑ s ∈ Finset.range 16, brickC V c (16 * (t.val / 16) + s) := by
  have e : 16 * (t.val / 16) + 15 = t.val := by omega
  have same : ∀ (u : ℕ) (hu : u < cfg1.N), u = t.val → outsAt1_3 (F := Ideal) V c u hu = outsAt1_3 V c t.val t.isLt :=
    fun u hu e => by subst e; rfl
  rw [← same _ (by rw [e]; exact t.isLt) e]
  exact outsAt1_3_run V c (t.val / 16) 15 (by norm_num) _ idx

/-- What the two result arrays end holding: at (I, 0, l), the 16 terms of I's run added up from zero. -/
def G2 : S8x1x128.Idx → EReal := fun idx => 0 + ∑ s ∈ Finset.range 16, brickS V c (16 * (idx 0).val + s)
def G3 : S8x1x128.Idx → EReal := fun idx => 0 + ∑ s ∈ Finset.range 16, brickC V c (16 * (idx 0).val + s)

theorem flushed2_eq (t : Fin cfg1.N) (hf : (cfg1.win 2).flush t = true) :
    (dat1 (F := Ideal) V c).flushed 2 t = ((cfg1.win 2).blk t).view.read (Elt Ideal) (G2 V c) := by
  have h15 := (flush1_2 t).mp hf
  funext y
  rw [View.read_apply]
  show (dat1 (F := Ideal) V c).after 2 t ((cfg1.win 2).xinj (grid1.coords t) y) = G2 V c (((cfg1.win 2).blk t).view.emb y)
  rw [after1_2]
  refine (outsAt1_2_flush V c t h15 _).trans ?_
  unfold G2
  have hy : (y 0).val < 1 := (y 0).isLt
  have he : ((((cfg1.win 2).blk t).view.emb y) 0).val = t.val / 16 := by
    show win1_2.index t 0 * 1 + 1 * (y 0).val = t.val / 16
    rw [(index1_2 t).1]; omega
  rw [he]

theorem flushed3_eq (t : Fin cfg1.N) (hf : (cfg1.win 3).flush t = true) :
    (dat1 (F := Ideal) V c).flushed 3 t = ((cfg1.win 3).blk t).view.read (Elt Ideal) (G3 V c) := by
  have h15 := (flush1_3 t).mp hf
  funext y
  rw [View.read_apply]
  show (dat1 (F := Ideal) V c).after 3 t ((cfg1.win 3).xinj (grid1.coords t) y) = G3 V c (((cfg1.win 3).blk t).view.emb y)
  rw [after1_3]
  refine (outsAt1_3_flush V c t h15 _).trans ?_
  unfold G3
  have hy : (y 0).val < 1 := (y 0).isLt
  have he : ((((cfg1.win 3).blk t).view.emb y) 0).val = t.val / 16 := by
    show win1_3.index t 0 * 1 + 1 * (y 0).val = t.val / 16
    rw [(index1_3 t).1]; omega
  rw [he]

/-- No block of the two outputs is cut: each is 1 x 1 x 128 at every point. -/
theorem xsize1_2 : ∀ t : Fin cfg1.N, win1_2.xsize (grid1.coords t) 0 = 1 ∧ win1_2.xsize (grid1.coords t) 1 = 1 ∧ win1_2.xsize (grid1.coords t) 2 = 128 :=
  (by decide +kernel : ∀ t : Fin grid1.N, win1_2.xsize (grid1.coords t) 0 = 1 ∧ win1_2.xsize (grid1.coords t) 1 = 1 ∧ win1_2.xsize (grid1.coords t) 2 = 128)
theorem xsize1_3 : ∀ t : Fin cfg1.N, win1_3.xsize (grid1.coords t) 0 = 1 ∧ win1_3.xsize (grid1.coords t) 1 = 1 ∧ win1_3.xsize (grid1.coords t) 2 = 128 :=
  (by decide +kernel : ∀ t : Fin grid1.N, win1_3.xsize (grid1.coords t) 0 = 1 ∧ win1_3.xsize (grid1.coords t) 1 = 1 ∧ win1_3.xsize (grid1.coords t) 2 = 128)

/-- Row I of the sums is written back by the last point of I's run. -/
theorem cover2 (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 8 := (i 0).isLt
  have h1 : (i 1 : Nat) < 1 := (i 1).isLt
  have h2 : (i 2 : Nat) < 128 := (i 2).isLt
  have hN : cfg1.N = 128 := N_1
  obtain ⟨t, ht⟩ : ∃ t : Fin cfg1.N, t.val = 16 * (i 0 : Nat) + 15 := ⟨⟨16 * (i 0 : Nat) + 15, by rw [hN]; omega⟩, rfl⟩
  refine ⟨t, (flush1_2 t).mpr (by omega), ?_⟩
  show i ∈ ((View.whole main_v24_0).slice (win1_2.rect t)).set
  rw [View.set_slice_whole, Rect.mem_set_unit]
  intro a
  match a with
  | ⟨0, _⟩ =>
    show win1_2.index t 0 * 1 ≤ (i 0 : Nat) ∧ (i 0 : Nat) < win1_2.index t 0 * 1 + win1_2.xsize (grid1.coords t) 0
    rw [(index1_2 t).1, (xsize1_2 t).1]; omega
  | ⟨1, _⟩ =>
    show win1_2.index t 1 * 1 ≤ (i 1 : Nat) ∧ (i 1 : Nat) < win1_2.index t 1 * 1 + win1_2.xsize (grid1.coords t) 1
    rw [(index1_2 t).2.1, (xsize1_2 t).2.1]; omega
  | ⟨2, _⟩ =>
    show win1_2.index t 2 * 128 ≤ (i 2 : Nat) ∧ (i 2 : Nat) < win1_2.index t 2 * 128 + win1_2.xsize (grid1.coords t) 2
    rw [(index1_2 t).2.2, (xsize1_2 t).2.2]; omega

theorem cover3 (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 8 := (i 0).isLt
  have h1 : (i 1 : Nat) < 1 := (i 1).isLt
  have h2 : (i 2 : Nat) < 128 := (i 2).isLt
  have hN : cfg1.N = 128 := N_1
  obtain ⟨t, ht⟩ : ∃ t : Fin cfg1.N, t.val = 16 * (i 0 : Nat) + 15 := ⟨⟨16 * (i 0 : Nat) + 15, by rw [hN]; omega⟩, rfl⟩
  refine ⟨t, (flush1_3 t).mpr (by omega), ?_⟩
  show i ∈ ((View.whole main_v24_1).slice (win1_3.rect t)).set
  rw [View.set_slice_whole, Rect.mem_set_unit]
  intro a
  match a with
  | ⟨0, _⟩ =>
    show win1_3.index t 0 * 1 ≤ (i 0 : Nat) ∧ (i 0 : Nat) < win1_3.index t 0 * 1 + win1_3.xsize (grid1.coords t) 0
    rw [(index1_3 t).1, (xsize1_3 t).1]; omega
  | ⟨1, _⟩ =>
    show win1_3.index t 1 * 1 ≤ (i 1 : Nat) ∧ (i 1 : Nat) < win1_3.index t 1 * 1 + win1_3.xsize (grid1.coords t) 1
    rw [(index1_3 t).2.1, (xsize1_3 t).2.1]; omega
  | ⟨2, _⟩ =>
    show win1_3.index t 2 * 128 ≤ (i 2 : Nat) ∧ (i 2 : Nat) < win1_3.index t 2 * 128 + win1_3.xsize (grid1.coords t) 2
    rw [(index1_3 t).2.2, (xsize1_3 t).2.2]; omega

/-- The two result arrays after the region. -/
theorem arr2_final : (dat1 (F := Ideal) V c).arrAt 2 cfg1.N = G2 V c :=
  (dat1 (F := Ideal) V c).arrAt_eq_of_cover 2 (G2 V c) (flushed2_eq V c) (cover2 c)
theorem arr3_final : (dat1 (F := Ideal) V c).arrAt 3 cfg1.N = G3 V c :=
  (dat1 (F := Ideal) V c).arrAt_eq_of_cover 3 (G3 V c) (flushed3_eq V c) (cover3 c)

/-! ## The closed forms -/

/-- Sixteen consecutive terms are the terms of the four by four pairs (j, k), in row-major order. -/
theorem sum16 (g : ℕ → EReal) : ∑ s ∈ Finset.range 16, g s = ∑ J : Fin 4, ∑ K : Fin 4, g (4 * J.val + K.val) := by
  rw [Finset.sum_range]
  show ∑ u : Fin (4 * 4), g u.val = _
  rw [← Equiv.sum_comp finProdFinEquiv (fun u : Fin (4 * 4) => g u.val), Fintype.sum_prod_type]
  refine Finset.sum_congr rfl fun J _ => Finset.sum_congr rfl fun K _ => ?_
  congr 1
  show K.val + 4 * J.val = 4 * J.val + K.val
  omega

/-- The term of the point (I, J, K), on the two arrays. -/
theorem brickS_eq (I : Fin 8) (J K : Fin 4) :
    brickS V c (16 * I.val + (4 * J.val + K.val)) = ∑ a : Fin 128, ∑ b : Fin 128, ∑ i : Fin 64,
      max (Am V c (ix2 ⟨64 * I.val + i.val, by omega⟩ ⟨128 * J.val + a.val, by omega⟩)
        - Cm V c (ix2 ⟨64 * I.val + i.val, by omega⟩ ⟨128 * K.val + b.val, by omega⟩)) 0 := by
  have hN : cfg1.N = 128 := N_1
  have hlt : 16 * I.val + (4 * J.val + K.val) < cfg1.N := by rw [hN]; omega
  unfold brickS
  rw [dif_pos hlt]
  refine Finset.sum_congr rfl fun a _ => Finset.sum_congr rfl fun b _ => Finset.sum_congr rfl fun i _ => ?_
  rw [blkA_apply V c ⟨_, hlt⟩ i a ⟨64 * I.val + i.val, by omega⟩ ⟨128 * J.val + a.val, by omega⟩ (by dsimp only; omega) (by dsimp only; omega),
    blkC_apply V c ⟨_, hlt⟩ i b ⟨64 * I.val + i.val, by omega⟩ ⟨128 * K.val + b.val, by omega⟩ (by dsimp only; omega) (by dsimp only; omega)]

theorem brickC_eq (I : Fin 8) (J K : Fin 4) :
    brickC V c (16 * I.val + (4 * J.val + K.val)) = ∑ a : Fin 128, ∑ b : Fin 128, ∑ i : Fin 64,
      (if max (Am V c (ix2 ⟨64 * I.val + i.val, by omega⟩ ⟨128 * J.val + a.val, by omega⟩)
        - Cm V c (ix2 ⟨64 * I.val + i.val, by omega⟩ ⟨128 * K.val + b.val, by omega⟩)) 0
          > Ideal.ofBits .f32 0x322BCC77#32 then (1 : EReal) else 0) := by
  have hN : cfg1.N = 128 := N_1
  have hlt : 16 * I.val + (4 * J.val + K.val) < cfg1.N := by rw [hN]; omega
  unfold brickC
  rw [dif_pos hlt]
  refine Finset.sum_congr rfl fun a _ => Finset.sum_congr rfl fun b _ => Finset.sum_congr rfl fun i _ => ?_
  rw [blkA_apply V c ⟨_, hlt⟩ i a ⟨64 * I.val + i.val, by omega⟩ ⟨128 * J.val + a.val, by omega⟩ (by dsimp only; omega) (by dsimp only; omega),
    blkC_apply V c ⟨_, hlt⟩ i b ⟨64 * I.val + i.val, by omega⟩ ⟨128 * K.val + b.val, by omega⟩ (by dsimp only; omega) (by dsimp only; omega)]

/-- THE SUMS: entry (I, 0, l) of the first result is the sum, over the 4 x 4 column blocks and the 64 x 128 x 128
    entries of each brick, of the positive parts of the first array's entry less the second's. -/
theorem sums_final (I : Fin 8) (l : Fin 128) :
    sumsArr V c (ix3 I (0 : Fin 1) l)
      = ∑ J : Fin 4, ∑ K : Fin 4, ∑ a : Fin 128, ∑ b : Fin 128, ∑ i : Fin 64,
          max (Am V c (ix2 ⟨64 * I.val + i.val, by omega⟩ ⟨128 * J.val + a.val, by omega⟩)
            - Cm V c (ix2 ⟨64 * I.val + i.val, by omega⟩ ⟨128 * K.val + b.val, by omega⟩)) 0 := by
  show (dat1 (F := Ideal) V c).arrAt 2 cfg1.N (ix3 I (0 : Fin 1) l) = _
  rw [arr2_final]
  show 0 + ∑ s ∈ Finset.range 16, brickS V c (16 * I.val + s) = _
  rw [zero_add, sum16 (fun s => brickS V c (16 * I.val + s))]
  exact Finset.sum_congr rfl fun J _ => Finset.sum_congr rfl fun K _ => brickS_eq V c I J K

/-- THE COUNTS: the same with each positive part replaced by 1 or 0 as it exceeds the threshold or not. -/
theorem counts_final (I : Fin 8) (l : Fin 128) :
    countsArr V c (ix3 I (0 : Fin 1) l)
      = ∑ J : Fin 4, ∑ K : Fin 4, ∑ a : Fin 128, ∑ b : Fin 128, ∑ i : Fin 64,
          (if max (Am V c (ix2 ⟨64 * I.val + i.val, by omega⟩ ⟨128 * J.val + a.val, by omega⟩)
            - Cm V c (ix2 ⟨64 * I.val + i.val, by omega⟩ ⟨128 * K.val + b.val, by omega⟩)) 0
              > Ideal.ofBits .f32 0x322BCC77#32 then (1 : EReal) else 0) := by
  show (dat1 (F := Ideal) V c).arrAt 3 cfg1.N (ix3 I (0 : Fin 1) l) = _
  rw [arr3_final]
  show 0 + ∑ s ∈ Finset.range 16, brickC V c (16 * I.val + s) = _
  rw [zero_add, sum16 (fun s => brickC V c (16 * I.val + s))]
  exact Finset.sum_congr rfl fun J _ => Finset.sum_congr rfl fun K _ => brickC_eq V c I J K

end Cert.KernelIdeal.SumValue
end
-- ==== Proof.Spec.lean ====
/-
  The batch-all triplet loss as one function of a distance matrix and the labels, over the extended reals.

  For a 512 × 512 matrix `D` of distances and labels `lab`, the anchor–positive matrix keeps `D i j + 1/2` where
  `i ≠ j` carry the same label and is a large negative number elsewhere; the anchor–negative matrix keeps `D i k`
  where the labels differ and is a large positive number elsewhere. A triple contributes the positive part of their
  difference; the loss is the sum of the contributions over the count of those above a threshold, the threshold
  added to the count.
-/
import Idealize.ShloMosaic.PureOps.Ideal

noncomputable section

namespace Triplet

open Idealize.ShloMosaic

/-- The threshold and the guard of the quotient: the single-precision number nearest 1e-8. -/
abbrev eps : EReal := Ideal.ofBits .f32 0x322BCC77#32
/-- The margin 1/2. -/
abbrev half : EReal := Ideal.ofBits .f32 0x3F000000#32
/-- The large negative and the large positive number (about ∓1e30) that stand where a pair is not admitted. -/
abbrev negBig : EReal := Ideal.ofBits .f32 0xF149F2CA#32
abbrev posBig : EReal := Ideal.ofBits .f32 0x7149F2CA#32

variable (D : Fin 512 → Fin 512 → EReal) (lab : Fin 512 → BitVec 32)

/-- Anchor–positive entries: the distance plus the margin for two different rows of one label. -/
def amat (i j : Fin 512) : EReal := if lab i = lab j ∧ i ≠ j then D i j + half else negBig
/-- Anchor–negative entries: the distance for rows of different labels. -/
def cmat (i k : Fin 512) : EReal := if lab i = lab k then posBig else D i k
/-- One triple's contribution. -/
def tl (i j k : Fin 512) : EReal := max (amat D lab i j - cmat D lab i k) 0
/-- The sum of all contributions, -/
def total : EReal := ∑ i : Fin 512, ∑ j : Fin 512, ∑ k : Fin 512, tl D lab i j k
/-- how many exceed the threshold, -/
def count : EReal := ∑ i : Fin 512, ∑ j : Fin 512, ∑ k : Fin 512, if eps < tl D lab i j k then (1 : EReal) else 0
/-- and the loss. -/
def loss : EReal := Ideal.div (total D lab) (count D lab + eps)

end Triplet

end
-- ==== Proof.TripletMath.lean ====
/-
  One triple's contribution written the way the reference computes it: the margin-shifted difference of two
  distances, multiplied by a 0/1 mask, then the positive part. The mask is a conjunction of one-bit words: the three
  rows are pairwise different (compared as 32-bit row numbers), the first two carry one label, the third another.
-/
import proofs.«118121_j17016660426841_2_alg».proof.Proof.Spec

noncomputable section

namespace Triplet

open Idealize.ShloMosaic

/-- The bit "rows `a` and `b` differ", on their 32-bit row numbers (the first one has the zero word added). -/
def neBit (a b : Fin 512) : BitVec 1 :=
  ~~~ IntOp.cmpi .eq (IntOp.addi (BitVec.ofNat 32 a.val) 0#32) (BitVec.ofNat 32 b.val)

/-- The mask of a triple: pairwise different rows, `j` of `i`'s label, `k` not. -/
def maskBit (lab : Fin 512 → BitVec 32) (i j k : Fin 512) : BitVec 1 :=
  IntOp.andi (IntOp.andi (IntOp.andi (neBit i j) (neBit i k)) (neBit j k))
    (IntOp.andi (IntOp.cmpi .eq (lab j) (lab i)) (~~~ IntOp.cmpi .eq (lab k) (lab i)))

variable (D : Fin 512 → Fin 512 → EReal) (lab : Fin 512 → BitVec 32)

/-- The masked, margin-shifted difference, its positive part taken. -/
def refTerm (i j k : Fin 512) : EReal :=
  max ((D i j - D i k + half) * (((maskBit lab i j k).toNat : ℝ) : EReal)) 0

/-- Whether that exceeds the threshold, as the number 0 or 1. -/
def refInd (i j k : Fin 512) : EReal :=
  (((Ideal.cmp .ogt (refTerm D lab i j k) eps).toNat : ℝ) : EReal)

/-! ## The constant words as real numbers -/

/-- The margin is one half. -/
theorem half_eq : half = (((1 : ℝ) / 2 : ℝ) : EReal) := by
  simp [half, Ideal.ofBits, Ideal.ieee, -EReal.coe_mul]; norm_num

/-- The real number the large words encode, up to sign. -/
def big : ℝ := 13234890 * 2 ^ 76

/-- The large positive word is that number, -/
theorem posBig_eq : posBig = (big : EReal) := by
  simp [posBig, big, Ideal.ofBits, Ideal.ieee, -EReal.coe_mul]

/-- the large negative word its negative. -/
theorem negBig_eq : negBig = ((-big : ℝ) : EReal) := by
  simp [negBig, big, Ideal.ofBits, Ideal.ieee, -EReal.coe_mul, -EReal.coe_neg]

/-- The threshold as a real number: 11258999 · 2⁻⁵⁰, about 1e-8. -/
def epsR : ℝ := 11258999 / 2 ^ 50

theorem eps_eq : eps = (epsR : EReal) := by
  simp [eps, epsR, Ideal.ofBits, Ideal.ieee, -EReal.coe_mul]; norm_num

theorem epsR_pos : 0 < epsR := by unfold epsR; positivity
theorem big_gt : (10 : ℝ) ^ 29 < big := by unfold big; norm_num

/-! ## The mask -/

/-- Row numbers below 512 are told apart by their 32-bit words. -/
theorem ofNat_inj (a b : Fin 512) : BitVec.ofNat 32 a.val = BitVec.ofNat 32 b.val ↔ a = b := by
  constructor
  · intro h
    have h' := congrArg BitVec.toNat h
    simp only [BitVec.toNat_ofNat] at h'
    have ha := a.isLt; have hb := b.isLt
    exact Fin.ext (by omega)
  · rintro rfl; rfl

/-- The "different rows" bit is set exactly when the rows differ. -/
theorem neBit_eq (a b : Fin 512) : neBit a b = if a = b then 0#1 else 1#1 := by
  unfold neBit IntOp.cmpi IntOp.addi
  rw [BitVec.add_zero]
  by_cases h : a = b
  · subst h; simp
  · rw [if_neg h]
    have : (BitVec.ofNat 32 a.val == BitVec.ofNat 32 b.val) = false := by
      rw [beq_eq_false_iff_ne]; exact fun h' => h ((ofNat_inj a b).mp h')
    simp only [this]; decide

/-- Equality of two words as a Boolean is the decision of their equality. -/
theorem beq_dec (a b : BitVec 32) : (a == b) = decide (a = b) := by
  by_cases h : a = b <;> simp [h]

/-- The mask is set exactly on the triples of pairwise different rows whose first two share a label the third lacks. -/
theorem maskBit_eq (lab : Fin 512 → BitVec 32) (i j k : Fin 512) :
    maskBit lab i j k = if (i ≠ j ∧ i ≠ k ∧ j ≠ k) ∧ lab j = lab i ∧ lab k ≠ lab i then 1#1 else 0#1 := by
  unfold maskBit IntOp.andi IntOp.cmpi
  simp only [neBit_eq, beq_dec]
  by_cases h1 : i = j <;> by_cases h2 : i = k <;> by_cases h3 : j = k <;> by_cases h4 : lab j = lab i <;>
    by_cases h5 : lab k = lab i <;> simp [h1, h2, h3, h4, h5]

/-! ## The pointwise comparison -/

/-- For real distances far below the large numbers, the masked form is the contribution `tl`: on the mask both are
    the positive part of `D i j + 1/2 - D i k`; off it the masked form is the positive part of zero, and in `tl`
    one of the two entries is a large number of the sign that makes the difference negative. -/
theorem refTerm_eq_tl (hD : ∀ a b, ∃ r : ℝ, D a b = (r : EReal) ∧ |r| ≤ 769) (i j k : Fin 512) :
    refTerm D lab i j k = tl D lab i j k := by
  obtain ⟨p, hp, hpb⟩ := hD i j
  obtain ⟨q, hq, hqb⟩ := hD i k
  have hpb' := abs_le.mp hpb
  have hqb' := abs_le.mp hqb
  have hbig := big_gt
  unfold refTerm tl amat cmat
  rw [maskBit_eq, hp, hq, half_eq, posBig_eq, negBig_eq]
  by_cases hm : (i ≠ j ∧ i ≠ k ∧ j ≠ k) ∧ lab j = lab i ∧ lab k ≠ lab i
  · obtain ⟨⟨hij, hik, hjk⟩, hl1, hl2⟩ := hm
    rw [if_pos ⟨⟨hij, hik, hjk⟩, hl1, hl2⟩, if_pos ⟨hl1.symm, hij⟩, if_neg (fun h => hl2 h.symm)]
    have e1 : ((p : EReal) - (q : EReal) + (((1 : ℝ) / 2 : ℝ) : EReal)) * ((((1#1 : BitVec 1).toNat : ℝ)) : EReal)
        = ((p - q + 1 / 2 : ℝ) : EReal) := by
      rw [← EReal.coe_sub, ← EReal.coe_add, ← EReal.coe_mul]; congr 1; norm_num
    have e2 : (p : EReal) + (((1 : ℝ) / 2 : ℝ) : EReal) - (q : EReal) = ((p - q + 1 / 2 : ℝ) : EReal) := by
      rw [← EReal.coe_add, ← EReal.coe_sub]; congr 1; ring
    rw [e1, e2]
  · rw [if_neg hm]
    have e1 : ((p : EReal) - (q : EReal) + (((1 : ℝ) / 2 : ℝ) : EReal)) * ((((0#1 : BitVec 1).toNat : ℝ)) : EReal) = 0 := by
      rw [← EReal.coe_sub, ← EReal.coe_add, ← EReal.coe_mul]; norm_num
    rw [e1, max_self]
    symm
    apply max_eq_right
    by_cases ha : lab i = lab j ∧ i ≠ j
    · rw [if_pos ha]
      by_cases hc : lab i = lab k
      · rw [if_pos hc, ← EReal.coe_add, ← EReal.coe_sub]
        exact EReal.coe_nonpos.mpr (by linarith)
      · exfalso
        apply hm
        refine ⟨⟨ha.2, ?_, ?_⟩, ha.1.symm, fun h => hc h.symm⟩
        · rintro rfl; exact hc rfl
        · rintro rfl; exact hc ha.1
    · rw [if_neg ha]
      by_cases hc : lab i = lab k
      · rw [if_pos hc, ← EReal.coe_sub]
        exact EReal.coe_nonpos.mpr (by linarith)
      · rw [if_neg hc, ← EReal.coe_sub]
        exact EReal.coe_nonpos.mpr (by linarith)

/-- So the indicators agree too. -/
theorem refInd_eq (hD : ∀ a b, ∃ r : ℝ, D a b = (r : EReal) ∧ |r| ≤ 769) (i j k : Fin 512) :
    refInd D lab i j k = if eps < tl D lab i j k then (1 : EReal) else 0 := by
  unfold refInd
  rw [refTerm_eq_tl D lab hD]
  unfold Ideal.cmp
  by_cases h : eps < tl D lab i j k
  · simp [h]
  · simp [h]

/-- Hence the quotient of the two sums of masked terms is the loss. -/
theorem loss_of_ref (hD : ∀ a b, ∃ r : ℝ, D a b = (r : EReal) ∧ |r| ≤ 769) :
    Ideal.div (∑ i : Fin 512, ∑ j : Fin 512, ∑ k : Fin 512, refTerm D lab i j k)
      ((∑ i : Fin 512, ∑ j : Fin 512, ∑ k : Fin 512, refInd D lab i j k) + eps) = loss D lab := by
  unfold loss total count
  simp only [refTerm_eq_tl D lab hD, refInd_eq D lab hD]

end Triplet

end
-- ==== Proof.DistBound.lean ====
/-
  The distances are real and bounded. For a matrix of real entries each row is divided by the larger of its
  Euclidean norm and a positive threshold; an entry is at most its row's norm in absolute value, so every normalized
  entry lies in [-1, 1], an inner product of two normalized rows of 768 entries in [-768, 768], and a distance, one
  minus that inner product, in [-767, 769].
-/
import proofs.«118121_j17016660426841_2_alg».proof.Proof.Gen.ReferenceIdeal.Read
import proofs.«118121_j17016660426841_2_alg».proof.Proof.TripletMath
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-! ## Reading the distance matrix -/

/-- A normalized entry: the entry over the larger of its row's norm and the threshold. -/
theorem v4_read (x : (⟨S512x768, .f32⟩ : BufTy).Contents (Elt Ideal)) (a : Fin 512) (k : Fin 768) :
    val_main_v4 (F := Ideal) x (ix2 a k)
      = Ideal.div (x (ix2 a k)) (max (Ideal.sqrt (0 + ∑ k' : Fin 768, x (ix2 a k') * x (ix2 a k'))) Triplet.eps) := by
  rw [val_main_v4_apply, val_main_v3_apply, val_main_v2_apply, val_main_v0_apply, val_main_call0_v2_apply,
    val_main_call0_v1_apply, val_main_call0_cst_apply, val_main_v1_apply, val_main_cst_apply]
  simp only [val_main_call0_v0_apply]
  have hidx : ∀ k' : Fin 768, idx_main_call0_v1 (idx_main_call0_v2 (idx_main_v3 (ix2 a k))) k' = ix2 a k' := fun k' => by
    funext d; match d with | ⟨0, _⟩ => rfl | ⟨1, _⟩ => rfl
  simp only [hidx]
  show Ideal.div _ (max (Ideal.sqrt (Ideal.ofBits .f32 0x00000000#32 + _)) _) = _
  rw [Ideal.ofBits_zero_f32]
  rfl

/-- A distance: one minus the inner product of two normalized rows. -/
theorem v8_read (x : (⟨S512x768, .f32⟩ : BufTy).Contents (Elt Ideal)) (i j : Fin 512) :
    val_main_v8 (F := Ideal) x (ix2 i j)
      = 1 - ∑ k : Fin 768, val_main_v4 (F := Ideal) x (ix2 i k) * val_main_v4 (F := Ideal) x (ix2 j k) := by
  rw [val_main_v8_apply, val_main_v7_apply, val_main_cst_0_apply, val_main_v6_apply]
  simp only [val_main_v5_apply]
  have hl : ∀ k : Fin 768, lidx_main_v6 (ix2 i j) k = ix2 i k := fun k => by
    funext d; match d with | ⟨0, _⟩ => rfl | ⟨1, _⟩ => rfl
  have hr : ∀ k : Fin 768, idx_main_v5 (ridx_main_v6 (ix2 i j) k) = ix2 j k := fun k => by
    funext d; match d with | ⟨0, _⟩ => rfl | ⟨1, _⟩ => rfl
  simp only [hl, hr]
  show Ideal.ofBits .f32 0x3F800000#32 - _ = _
  rw [Ideal.ofBits_one_f32]

/-! ## Real arithmetic inside the extended reals -/

theorem coe_sum {ι : Type*} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

/-! ## The normalized rows of a real matrix -/

variable (xr : S512x768.Idx → ℝ)

/-- A row's sum of squares, -/
def sq (a : Fin 512) : ℝ := ∑ k : Fin 768, xr (ix2 a k) * xr (ix2 a k)
/-- the divisor of the row: its norm, or the threshold if that is larger, -/
def nrm (a : Fin 512) : ℝ := max (Real.sqrt (sq xr a)) Triplet.epsR
/-- and a normalized entry. -/
def unit (a : Fin 512) (k : Fin 768) : ℝ := xr (ix2 a k) / nrm xr a

theorem sq_nonneg (a : Fin 512) : 0 ≤ sq xr a := Finset.sum_nonneg fun k _ => mul_self_nonneg _

theorem nrm_pos (a : Fin 512) : 0 < nrm xr a := lt_of_lt_of_le Triplet.epsR_pos (le_max_right _ _)

/-- An entry is at most its row's norm in absolute value, so a normalized entry at most one. -/
theorem abs_unit_le (a : Fin 512) (k : Fin 768) : |unit xr a k| ≤ 1 := by
  unfold unit
  rw [abs_div, abs_of_pos (nrm_pos xr a), div_le_one (nrm_pos xr a)]
  refine le_trans ?_ (le_max_left _ _)
  rw [← Real.sqrt_mul_self_eq_abs]
  apply Real.sqrt_le_sqrt
  exact Finset.single_le_sum (f := fun k => xr (ix2 a k) * xr (ix2 a k)) (fun k _ => mul_self_nonneg _) (Finset.mem_univ k)

theorem v4_real (a : Fin 512) (k : Fin 768) :
    val_main_v4 (F := Ideal) (fun i => (xr i : EReal)) (ix2 a k) = (unit xr a k : EReal) := by
  rw [v4_read, zero_add]
  simp only [← EReal.coe_mul]
  rw [← coe_sum, Ideal.sqrt_coe, show (∑ k' : Fin 768, xr (ix2 a k') * xr (ix2 a k')) = sq xr a from rfl,
    if_neg (not_lt.mpr (sq_nonneg xr a)), Triplet.eps_eq, coe_max, show max (Real.sqrt (sq xr a)) Triplet.epsR = nrm xr a from rfl,
    Ideal.div_coe (ne_of_gt (nrm_pos xr a)), ← EReal.coe_mul]
  congr 1
  unfold unit; ring

/-- The distances of a real matrix are real and at most 769 in absolute value. -/
theorem v8_real (i j : Fin 512) : ∃ r : ℝ, val_main_v8 (F := Ideal) (fun i => (xr i : EReal)) (ix2 i j) = (r : EReal) ∧ |r| ≤ 769 := by
  refine ⟨1 - ∑ k : Fin 768, unit xr i k * unit xr j k, ?_, ?_⟩
  · rw [v8_read]
    simp only [v4_real, ← EReal.coe_mul]
    rw [← coe_sum, ← EReal.coe_one, ← EReal.coe_sub]
  · have h : |∑ k : Fin 768, unit xr i k * unit xr j k| ≤ 768 := by
      refine le_trans (Finset.abs_sum_le_sum_abs _ _) ?_
      refine le_trans (Finset.sum_le_sum (g := fun _ => (1 : ℝ)) fun k _ => ?_) ?_
      · rw [abs_mul]
        exact mul_le_one₀ (abs_unit_le xr i k) (abs_nonneg _) (abs_unit_le xr j k)
      · simp
    have h' := abs_le.mp h
    rw [abs_le]; constructor <;> linarith

theorem dist_real_bounded (x : (⟨S512x768, .f32⟩ : BufTy).Contents (Elt Ideal)) (hfin : ∀ i, ∃ r : ℝ, x i = (r : EReal))
    (i j : Fin 512) : ∃ r : ℝ, val_main_v8 (F := Ideal) x (ix2 i j) = (r : EReal) ∧ |r| ≤ 769 := by
  choose xr hxr using hfin
  obtain rfl : x = fun i => (xr i : EReal) := funext hxr
  exact v8_real xr i j

end Cert.ReferenceIdeal.RefValue

end
-- ==== Proof.HostPre.lean ====
import proofs.«118121_j17016660426841_2_alg».proof.Proof.Gen.KernelIdeal.Regions
import proofs.«118121_j17016660426841_2_alg».proof.Proof.Gen.ReferenceIdeal.Read
import proofs.«118121_j17016660426841_2_alg».proof.Proof.DistBound
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-!
# The host operations before the first region, over the extended reals

Before the first kernel region the program normalises the rows of its argument: the squares, each row's sum from
zero, the square root, the larger of that and the threshold, the quotient, and a change of format that is the identity
on extended reals. The reference normalises its argument by the same operations in the same order. So the matrix the
first region reads is the reference's normalised matrix, and one minus the inner products of its rows is the
reference's distance matrix.
-/

noncomputable section

open scoped BigOperators

namespace Cert.KernelIdeal.HostValue

open Cert.KernelIdeal Cert.KernelIdeal.Gen Idealize.ShloMosaic Idealize.ShloMosaic.TcCoe Idealize.SL.Sem Idealize.ShloMosaic.StableHlo ValueIdx

variable (m : (ℓ : Loc nD τ sig) → Buf (Elt Ideal) ℓ) (c : Dev nD)

/-- The argument matrix at launch, as a function of its two coordinates. -/
abbrev argK : S512x768.Idx → EReal := m ((c : Thread nD τ).loc main_arg0)

/-- The matrix the first region reads, as a function of its two coordinates. -/
abbrev xnK : S512x768.Idx → EReal := V2 (F := Ideal) m c main_v5

/-- The matrix the first region reads is the reference's normalised matrix of the argument: the same operations in
the same order, and the change of format the identity. -/
theorem xnK_eq : xnK m c = Cert.ReferenceIdeal.Read.val_main_v4 (F := Ideal) (argK m c) := by
  dsimp only [xnK, V2, V1, V0]
  after_results
  rfl

/-- Entry `(a, k)` of the matrix the first region reads is the reference's normalised entry. -/
theorem xnK_apply (a : Fin 512) (k : Fin 768) :
    xnK m c (ix2 a k) = Cert.ReferenceIdeal.Read.val_main_v4 (F := Ideal) (argK m c) (ix2 a k) :=
  congrFun (xnK_eq m c) (ix2 a k)

/-- Entry `(a, k)` written out: the argument's entry over the larger of its row's Euclidean norm and the threshold. -/
theorem xnK_read (a : Fin 512) (k : Fin 768) :
    xnK m c (ix2 a k)
      = Ideal.div (argK m c (ix2 a k))
          (max (Ideal.sqrt (0 + ∑ k' : Fin 768, argK m c (ix2 a k') * argK m c (ix2 a k'))) Triplet.eps) :=
  (xnK_apply m c a k).trans (Cert.ReferenceIdeal.RefValue.v4_read (argK m c) a k)

/-- One minus the inner product of rows `i` and `j` of the matrix the first region reads is entry `(i, j)` of the
reference's distance matrix. -/
theorem pre_dist (i j : Fin 512) :
    1 - ∑ k : Fin 768, xnK m c (ix2 i k) * xnK m c (ix2 j k)
      = Cert.ReferenceIdeal.Read.val_main_v8 (F := Ideal) (argK m c) (ix2 i j) := by
  rw [Cert.ReferenceIdeal.RefValue.v8_read]
  exact congrArg (1 - ·) (Finset.sum_congr rfl fun k _ => by rw [xnK_apply, xnK_apply])

end Cert.KernelIdeal.HostValue

end
-- ==== Proof.HostMid.lean ====
/-
  The host operations between the two kernel regions, over the extended reals, read at an index.

  From the labels they build two masks over pairs of rows — the same label, and the diagonal (the row coordinate
  compared with the column coordinate as 32-bit words, which are faithful below 512) — and from the first region's
  distance matrix the two matrices the second region reads: the distance plus the margin where the pair is off the
  diagonal with one label and a large negative number elsewhere; the distance where the labels differ and a large
  positive number elsewhere.
-/
import proofs.«118121_j17016660426841_2_alg».proof.Proof.Gen.KernelIdeal.Regions
import proofs.«118121_j17016660426841_2_alg».proof.Proof.Spec
import Idealize.ShloMosaic.Lib.Affine
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem Idealize.ShloMosaic.StableHlo ValueIdx

variable (m : (ℓ : Loc nD τ sig) → Buf (Elt Ideal) ℓ) (outs : Outs (F := Ideal)) (c : Dev nD)

/-! ## The label masks and the two masked matrices, read at an index -/

section Mid

variable (L : S512.Idx → BitVec 32) (Dm : S512x512.Idx → EReal) (i j : Fin 512)

/-- The labels spread along the rows: entry `(i, j)` is row `i`'s label. -/
theorem rowLab : broadcastInDim S512x512 ![0, 1] bcast_S512x1_S512x512_0_1 (broadcastInDim S512x1 ![0] bcast_S512_S512x1_0 L) (ix2 i j) = L (ix1 i) := by
  rw [broadcastInDim_apply _ bcast_S512x1_S512x512_0_1 _ (ix2 i j) (ix2 i (0 : Fin 1)) (fun a => match a with
    | ⟨0, _⟩ => by show i.val = if (512 : Nat) = 1 then 0 else i.val; rw [if_neg (by decide)]
    | ⟨1, _⟩ => by show 0 = if (1 : Nat) = 1 then 0 else j.val; rw [if_pos rfl])]
  exact broadcastInDim_apply _ bcast_S512_S512x1_0 L (ix2 i (0 : Fin 1)) (ix1 i) (fun a => match a with
    | ⟨0, _⟩ => by show i.val = if (512 : Nat) = 1 then 0 else i.val; rw [if_neg (by decide)])

/-- The labels spread along the columns: entry `(i, j)` is row `j`'s label. -/
theorem colLab : broadcastInDim S512x512 ![0, 1] bcast_S1x512_S512x512_0_1 (broadcastInDim S1x512 ![1] bcast_S512_S1x512_1 L) (ix2 i j) = L (ix1 j) := by
  rw [broadcastInDim_apply _ bcast_S1x512_S512x512_0_1 _ (ix2 i j) (ix2 (0 : Fin 1) j) (fun a => match a with
    | ⟨0, _⟩ => by show 0 = if (1 : Nat) = 1 then 0 else i.val; rw [if_pos rfl]
    | ⟨1, _⟩ => by show j.val = if (512 : Nat) = 1 then 0 else j.val; rw [if_neg (by decide)])]
  exact broadcastInDim_apply _ bcast_S512_S1x512_1 L (ix2 (0 : Fin 1) j) (ix1 j) (fun a => match a with
    | ⟨0, _⟩ => by show j.val = if (512 : Nat) = 1 then 0 else j.val; rw [if_neg (by decide)])

/-- A rank-0 value spread over the matrix is that value everywhere. -/
theorem splat {α : Type} (v : S_.Idx → α) : broadcastInDim S512x512 ![] bcast_S_S512x512 v (ix2 i j) = v ix0 :=
  broadcastInDim_apply _ bcast_S_S512x512 v (ix2 i j) ix0 (fun a => a.elim0)

/-- Two coordinates below 512 have the same 32-bit word only when equal. -/
theorem ofNat_inj_512 : BitVec.ofNat 32 i.val = BitVec.ofNat 32 j.val ↔ i = j := by
  rw [← BitVec.toNat_inj, BitVec.toNat_ofNat, BitVec.toNat_ofNat, Nat.mod_eq_of_lt (by omega), Nat.mod_eq_of_lt (by omega), Fin.val_inj]

/-- The diagonal mask: the row coordinate (plus zero) compared with the column coordinate. -/
theorem eye_iff : cmpi .eq (addi (iotaInDim S512x512 32 0) (broadcastInDim S512x512 ![] bcast_S_S512x512 (constantI S_ 32 0#32))) (iotaInDim S512x512 32 1) (ix2 i j) = 1#1 ↔ i = j := by
  show IntOp.cmpi .eq (IntOp.addi (BitVec.ofNat 32 i.val) (broadcastInDim S512x512 ![] bcast_S_S512x512 (constantI S_ 32 0#32) (ix2 i j))) (BitVec.ofNat 32 j.val) = 1#1 ↔ _
  rw [splat, IntOp.cmpi_eq]
  show BitVec.ofNat 32 i.val + 0#32 = _ ↔ _
  rw [BitVec.add_zero, ofNat_inj_512]

/-- The same-label mask. -/
theorem lbl_iff : cmpi .eq (broadcastInDim S512x512 ![0, 1] bcast_S512x1_S512x512_0_1 (broadcastInDim S512x1 ![0] bcast_S512_S512x1_0 L))
      (broadcastInDim S512x512 ![0, 1] bcast_S1x512_S512x512_0_1 (broadcastInDim S1x512 ![1] bcast_S512_S1x512_1 L)) (ix2 i j) = 1#1 ↔ L (ix1 i) = L (ix1 j) := by
  show IntOp.cmpi .eq _ _ = 1#1 ↔ _
  rw [IntOp.cmpi_eq, rowLab, colLab]

/-- The anchor–positive matrix: the distance plus the margin at two different rows of one label, the large negative number elsewhere. -/
theorem amat_read :
    select
      (andi
        (cmpi .eq (broadcastInDim S512x512 ![0, 1] bcast_S512x1_S512x512_0_1 (broadcastInDim S512x1 ![0] bcast_S512_S512x1_0 L))
          (broadcastInDim S512x512 ![0, 1] bcast_S1x512_S512x512_0_1 (broadcastInDim S1x512 ![1] bcast_S512_S1x512_1 L)))
        (noti (cmpi .eq (addi (iotaInDim S512x512 32 0) (broadcastInDim S512x512 ![] bcast_S_S512x512 (constantI S_ 32 0#32))) (iotaInDim S512x512 32 1))))
      (addf (F := Ideal) (φ := .f32) Dm (broadcastInDim S512x512 ![] bcast_S_S512x512 (constant (F := Ideal) S_ .f32 0x3F000000#32)))
      (broadcastInDim S512x512 ![] bcast_S_S512x512 (constant (F := Ideal) S_ .f32 0xF149F2CA#32)) (ix2 i j)
    = Triplet.amat (fun a b => Dm (ix2 a b)) (fun a => L (ix1 a)) i j := by
  unfold Triplet.amat
  show (if IntOp.andi _ (~~~ _) = 1#1 then Dm (ix2 i j) + _ else _) = _
  rw [splat, splat]
  refine if_congr ?_ rfl rfl
  rw [IntOp.andi_eq_one, IntOp.not_eq_one, lbl_iff, eye_iff]

/-- The anchor–negative matrix: the distance at rows of different labels, the large positive number elsewhere. -/
theorem cmat_read :
    select
      (noti
        (cmpi .eq (broadcastInDim S512x512 ![0, 1] bcast_S512x1_S512x512_0_1 (broadcastInDim S512x1 ![0] bcast_S512_S512x1_0 L))
          (broadcastInDim S512x512 ![0, 1] bcast_S1x512_S512x512_0_1 (broadcastInDim S1x512 ![1] bcast_S512_S1x512_1 L))))
      Dm
      (broadcastInDim S512x512 ![] bcast_S_S512x512 (constant (F := Ideal) S_ .f32 0x7149F2CA#32)) (ix2 i j)
    = Triplet.cmat (fun a b => Dm (ix2 a b)) (fun a => L (ix1 a)) i j := by
  unfold Triplet.cmat
  show (if (~~~ _) = 1#1 then Dm (ix2 i j) else _) = _
  rw [splat]
  by_cases h : L (ix1 i) = L (ix1 j)
  · rw [if_pos h, if_neg (by rw [IntOp.not_eq_one, not_not, lbl_iff]; exact h)]; rfl
  · rw [if_neg h, if_pos (by rw [IntOp.not_eq_one, lbl_iff]; exact h)]

end Mid

/-! ## The two masked matrices after the host operations between the regions -/

/-- What region 0 leaves in its result array, as a matrix; and the labels at launch. -/
abbrev dist : Fin 512 → Fin 512 → EReal := fun a b => (outs 3 main_v6 c : S512x512.Idx → EReal) (ix2 a b)
abbrev lab : Fin 512 → BitVec 32 := fun a => (m ((c.tc : Thread nD τ).loc main_arg1) : S512.Idx → BitVec 32) (ix1 a)

/-- No operation before the second region writes the labels. -/
theorem V2_labels : V2 (F := Ideal) m c main_arg1 = m ((c.tc : Thread nD τ).loc main_arg1) :=
  (V2_of m c main_arg1 (by decide)).trans ((V1_of m c main_arg1 (by decide)).trans rfl)

variable (i j k : Fin 512)

/-- The anchor–positive matrix the second region reads. -/
theorem amat_eq : (V7 (F := Ideal) m outs c main_v21 : S512x512.Idx → EReal) (ix2 i j) = Triplet.amat (dist outs c) (lab m c) i j := by
  have h1 := V2_labels m c
  dsimp only [V7, V6, V5, V4, V3]
  generalize V2 m c = W at h1 ⊢
  after_results
  rw [Function.update_self, Function.update_of_ne (StableHlo.devRef_ne_of_ne (by decide)), h1]
  exact amat_read (m ((c.tc : Thread nD τ).loc main_arg1)) (outs 3 main_v6 c) i j

/-- The anchor–negative matrix the second region reads. -/
theorem cmat_eq : (V7 (F := Ideal) m outs c main_v23 : S512x512.Idx → EReal) (ix2 i k) = Triplet.cmat (dist outs c) (lab m c) i k := by
  have h1 := V2_labels m c
  dsimp only [V7, V6, V5, V4, V3]
  generalize V2 m c = W at h1 ⊢
  after_results
  dsimp only
  rw [Function.update_self, Function.update_of_ne (StableHlo.devRef_ne_of_ne (by decide)), h1]
  exact cmat_read (m ((c.tc : Thread nD τ).loc main_arg1)) (outs 3 main_v6 c) i k

end Cert.KernelIdeal.HostValue

end
-- ==== Proof.HostTail.lean ====
/-
  The operations that follow the second kernel region, over the extended reals.

  The region leaves two arrays of eight blocks each. The operations take entry `[·, 0, 0]` of every block, sum the
  eight entries of each array from zero, add the threshold to the second sum and divide the first by it.
-/
import proofs.«118121_j17016660426841_2_alg».proof.Proof.Gen.KernelIdeal.Regions
import proofs.«118121_j17016660426841_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem Idealize.ShloMosaic.StableHlo ValueIdx

variable (m : (ℓ : Loc nD τ sig) → Buf (Elt Ideal) ℓ) (outs : Outs (F := Ideal)) (c : Dev nD)

/-! ## The last host operations: the quotient of the two sums of the eight blocks' first entries -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- Entry `[·, 0, 0]` of each of the eight blocks, the eight of them summed from zero. -/
theorem sum8 (X : S8x1x128.Idx → EReal) (j : S_.Idx) :
    Host.reduceAdd (F := Ideal) (φ := .f32) (fun i => shapeCast S8 (extractStridedSlice S8x1x1 ![0, 0, 0] X slices_S8x1x128_S8x1x1_0_0_0) shapeCasts_S8x1x1_S8 i)
      (constant (F := Ideal) S_ .f32 0x00000000#32) reducesTo_S8_S_d0 h_S_ j = ∑ I : Fin 8, X (ix3 I 0 0) := by
  simp only [Host.reduceAdd, Ideal.hostReduceAdd_def]
  rw [Ideal.hostReduceAdd_total reducesTo_S8_S_d0 (fun b => b.elim0)]
  show Ideal.ofBits .f32 0x00000000#32 + _ = _
  rw [Ideal.ofBits_zero_f32, zero_add, sum_idx1]
  refine Finset.sum_congr rfl fun k _ => ?_
  rw [shapeCast_apply _ shapeCasts_S8x1x1_S8 _ (ix3 k 0 0) (by rw [Shape.rowMajor_val_three, Shape.rowMajor_val_one]; show (k.val * 1 + 0) * 1 + 0 = k.val; omega)]
  exact extractStridedSlice_apply _ X slices_S8x1x128_S8x1x1_0_0_0 _ (ix3 k 0 0) (fun a => match a with
    | ⟨0, _⟩ => by show k.val = 0 + k.val; omega
    | ⟨1, _⟩ => rfl
    | ⟨2, _⟩ => rfl)

/-- What region 1 leaves in its two result arrays: eight blocks of sums and of counts. -/
abbrev sums : S8x1x128.Idx → EReal := outs 8 main_v24_0 c
abbrev cnts : S8x1x128.Idx → EReal := outs 8 main_v24_1 c

/-- What the program returns: the first sum over the second plus the threshold. -/
theorem tail : (V9 (F := Ideal) m outs c main_v32 : S_.Idx → EReal)
    = fun _ => Ideal.div (∑ I : Fin 8, sums outs c (ix3 I 0 0)) ((∑ I : Fin 8, cnts outs c (ix3 I 0 0)) + Triplet.eps) := by
  dsimp only [V9, V8]
  generalize V7 m outs c = W
  after_results
  rw [Function.update_self, Function.update_of_ne (StableHlo.devRef_ne_of_ne (by decide)), Function.update_self]
  funext j
  exact congrArg₂ Ideal.div (sum8 (sums outs c) j) (congrArg (· + Triplet.eps) (sum8 (cnts outs c) j))

end Cert.KernelIdeal.HostValue

end
-- ==== Proof.BrickSums.lean ====
import Mathlib.Algebra.BigOperators.Fin
import Mathlib.Logic.Equiv.Fin.Basic

/-!
# Regrouping the triplet sum by bricks

The sum of `f i j k` over three indices below 512 is taken by the second kernel brick by brick: the first index in
8 blocks of 64, the other two in 4 blocks of 128, and the 16 pairs of blocks of the last two indices walked as one
counter `u` with the pair `(u / 4, u % 4)`. Here are the regroupings that relate the two, valid in every commutative
additive monoid: only the commutativity and associativity of `+` are used.
-/

open scoped BigOperators

namespace Cert.TripletSums

variable {M : Type*} [AddCommMonoid M]

/-! ## One counter for a pair of indices -/

/-- A sum over a counter below `m * n` of a function of its quotient and remainder by `n` is the double sum. -/
theorem sum_divNat_modNat (m n : ℕ) (h : Fin m → Fin n → M) :
    ∑ u : Fin (m * n), h u.divNat u.modNat = ∑ J : Fin m, ∑ K : Fin n, h J K := by
  rw [← Fintype.sum_prod_type']
  exact Equiv.sum_comp finProdFinEquiv.symm fun p : Fin m × Fin n => h p.1 p.2

/-- The sixteen pairs of blocks as one counter: `u` stands for the pair `(u / 4, u % 4)`. -/
theorem sum_fin16 (h : Fin 4 → Fin 4 → M) :
    ∑ u : Fin 16, h ⟨u.val / 4, by have := u.isLt; omega⟩ ⟨u.val % 4, by have := u.isLt; omega⟩
      = ∑ J : Fin 4, ∑ K : Fin 4, h J K :=
  sum_divNat_modNat 4 4 h

/-! ## One index in blocks -/

/-- A sum over an index below `n * b` taken in `n` blocks of `b`: the index is `b * s + k`. -/
theorem sum_fin_blocks (n b : ℕ) (g : Fin (n * b) → M) (hlt : ∀ (s : Fin n) (k : Fin b), b * s.val + k.val < n * b) :
    ∑ s : Fin n, ∑ k : Fin b, g ⟨b * s.val + k.val, hlt s k⟩ = ∑ x : Fin (n * b), g x := by
  rw [← Equiv.sum_comp finProdFinEquiv g, Fintype.sum_prod_type]
  exact Finset.sum_congr rfl fun s _ => Finset.sum_congr rfl fun k _ => congrArg g (Fin.ext (Nat.add_comm _ _))

/-- The first index, below 512, in 8 blocks of 64. -/
theorem sum_blocks_8_64 (g : Fin 512 → M) :
    ∑ I : Fin 8, ∑ i : Fin 64, g ⟨64 * I.val + i.val, by have := I.isLt; have := i.isLt; omega⟩ = ∑ x : Fin 512, g x :=
  sum_fin_blocks 8 64 g fun I i => by have := I.isLt; have := i.isLt; omega

/-- An index below 512 in 4 blocks of 128. -/
theorem sum_blocks_4_128 (g : Fin 512 → M) :
    ∑ J : Fin 4, ∑ a : Fin 128, g ⟨128 * J.val + a.val, by have := J.isLt; have := a.isLt; omega⟩ = ∑ y : Fin 512, g y :=
  sum_fin_blocks 4 128 g fun J a => by have := J.isLt; have := a.isLt; omega

/-! ## The bricks -/

/-- The sum of `f` over brick `(I, J, K)`: 64 values of the first index, 128 of each of the other two. -/
def brick (f : Fin 512 → Fin 512 → Fin 512 → M) (I : Fin 8) (J K : Fin 4) : M :=
  ∑ a : Fin 128, ∑ b : Fin 128, ∑ i : Fin 64,
    f ⟨64 * I.val + i.val, by have := I.isLt; have := i.isLt; omega⟩
      ⟨128 * J.val + a.val, by have := J.isLt; have := a.isLt; omega⟩
      ⟨128 * K.val + b.val, by have := K.isLt; have := b.isLt; omega⟩

/-- Six nested sums reordered: the place inside the first index's block moved from innermost to just inside its block,
and the two places inside the other blocks each to just inside theirs. -/
theorem sum_reorder {α β γ δ ε ζ : Type*} [Fintype α] [Fintype β] [Fintype γ] [Fintype δ] [Fintype ε] [Fintype ζ]
    (g : α → β → γ → δ → ε → ζ → M) :
    ∑ I : α, ∑ J : γ, ∑ K : ε, ∑ a : δ, ∑ b : ζ, ∑ i : β, g I i J a K b
      = ∑ I : α, ∑ i : β, ∑ J : γ, ∑ a : δ, ∑ K : ε, ∑ b : ζ, g I i J a K b := by
  refine Finset.sum_congr rfl fun I _ => ?_
  calc ∑ J : γ, ∑ K : ε, ∑ a : δ, ∑ b : ζ, ∑ i : β, g I i J a K b
      = ∑ J : γ, ∑ K : ε, ∑ a : δ, ∑ i : β, ∑ b : ζ, g I i J a K b :=
        Finset.sum_congr rfl fun J _ => Finset.sum_congr rfl fun K _ => Finset.sum_congr rfl fun a _ => Finset.sum_comm
    _ = ∑ J : γ, ∑ K : ε, ∑ i : β, ∑ a : δ, ∑ b : ζ, g I i J a K b :=
        Finset.sum_congr rfl fun J _ => Finset.sum_congr rfl fun K _ => Finset.sum_comm
    _ = ∑ J : γ, ∑ i : β, ∑ K : ε, ∑ a : δ, ∑ b : ζ, g I i J a K b :=
        Finset.sum_congr rfl fun J _ => Finset.sum_comm
    _ = ∑ i : β, ∑ J : γ, ∑ K : ε, ∑ a : δ, ∑ b : ζ, g I i J a K b := Finset.sum_comm
    _ = ∑ i : β, ∑ J : γ, ∑ a : δ, ∑ K : ε, ∑ b : ζ, g I i J a K b :=
        Finset.sum_congr rfl fun i _ => Finset.sum_congr rfl fun J _ => Finset.sum_comm

/-- The bricks tile the cube: summing every brick's sum is summing over the three indices. -/
theorem sum_bricks (f : Fin 512 → Fin 512 → Fin 512 → M) :
    ∑ I : Fin 8, ∑ J : Fin 4, ∑ K : Fin 4, ∑ a : Fin 128, ∑ b : Fin 128, ∑ i : Fin 64,
        f ⟨64 * I.val + i.val, by have := I.isLt; have := i.isLt; omega⟩
          ⟨128 * J.val + a.val, by have := J.isLt; have := a.isLt; omega⟩
          ⟨128 * K.val + b.val, by have := K.isLt; have := b.isLt; omega⟩
      = ∑ i : Fin 512, ∑ j : Fin 512, ∑ k : Fin 512, f i j k := by
  rw [sum_reorder (fun (I : Fin 8) (i : Fin 64) (J : Fin 4) (a : Fin 128) (K : Fin 4) (b : Fin 128) =>
    f ⟨64 * I.val + i.val, by have := I.isLt; have := i.isLt; omega⟩
      ⟨128 * J.val + a.val, by have := J.isLt; have := a.isLt; omega⟩
      ⟨128 * K.val + b.val, by have := K.isLt; have := b.isLt; omega⟩)]
  rw [sum_blocks_8_64 fun x => ∑ J : Fin 4, ∑ a : Fin 128, ∑ K : Fin 4, ∑ b : Fin 128,
    f x ⟨128 * J.val + a.val, by have := J.isLt; have := a.isLt; omega⟩
      ⟨128 * K.val + b.val, by have := K.isLt; have := b.isLt; omega⟩]
  refine Finset.sum_congr rfl fun x _ => ?_
  rw [sum_blocks_4_128 fun y => ∑ K : Fin 4, ∑ b : Fin 128,
    f x y ⟨128 * K.val + b.val, by have := K.isLt; have := b.isLt; omega⟩]
  refine Finset.sum_congr rfl fun y _ => ?_
  exact sum_blocks_4_128 fun z => f x y z

/-- The same with the bricks named. -/
theorem sum_brick (f : Fin 512 → Fin 512 → Fin 512 → M) :
    ∑ I : Fin 8, ∑ J : Fin 4, ∑ K : Fin 4, brick f I J K = ∑ i : Fin 512, ∑ j : Fin 512, ∑ k : Fin 512, f i j k :=
  sum_bricks f

/-- The kernel's walk: for each block of the first index, the sixteen pairs of blocks of the other two as one counter.
Summing the bricks in that order is summing over the three indices. -/
theorem sum_brick_walk (f : Fin 512 → Fin 512 → Fin 512 → M) :
    ∑ I : Fin 8, ∑ u : Fin 16,
        brick f I ⟨u.val / 4, by have := u.isLt; omega⟩ ⟨u.val % 4, by have := u.isLt; omega⟩
      = ∑ i : Fin 512, ∑ j : Fin 512, ∑ k : Fin 512, f i j k := by
  rw [← sum_brick f]
  exact Finset.sum_congr rfl fun I _ => sum_fin16 fun J K => brick f I J K

end Cert.TripletSums
-- ==== Proof.KValue.lean ====
/-
  The kernel program's result as a function of its arguments, over the extended reals.

  After the last host lines the result is the quotient of two sums of eight numbers: entry [I, 0, 0] of the two arrays
  the second region leaves. Entry [I, 0, ·] of the first is the sum, over the sixteen (J, K) points of row block I, of
  the brick sums of max(a − c, 0), a and c the two masked matrices; of the second, of the indicators of
  max(a − c, 0) exceeding the threshold. The masked matrices are the specification's, of the matrix the first region
  leaves and the labels; the first region leaves one minus the products of the normalised rows, and the normalised
  rows are the reference's, so that matrix is the reference's distance matrix. The bricks tile the cube of triples:
  the two sums are the specification's total and count.
-/
import proofs.«118121_j17016660426841_2_alg».proof.Proof.Frame
import proofs.«118121_j17016660426841_2_alg».proof.Proof.DistValue
import proofs.«118121_j17016660426841_2_alg».proof.Proof.SumValue
import proofs.«118121_j17016660426841_2_alg».proof.Proof.HostPre
import proofs.«118121_j17016660426841_2_alg».proof.Proof.HostMid
import proofs.«118121_j17016660426841_2_alg».proof.Proof.HostTail
import proofs.«118121_j17016660426841_2_alg».proof.Proof.BrickSums
import proofs.«118121_j17016660426841_2_alg».proof.Proof.Spec

noncomputable section

namespace Cert.KernelIdeal.KValue

open Cert.KernelIdeal Cert.KernelIdeal.Gen Idealize.ShloMosaic Idealize.ShloMosaic.TcCoe Idealize.SL.Sem ValueIdx
open Idealize.ShloMosaic.Pipeline (Dat)

variable (m : (ℓ : Loc nD τ sig) → Buf (Elt Ideal) ℓ) (c : Dev nD)

/-- The distance matrix as the reference computes it from the first argument, and the labels. -/
abbrev D : Fin 512 → Fin 512 → EReal := fun i j =>
  Cert.ReferenceIdeal.Read.val_main_v8 (F := Ideal) (HostValue.argK m c) (ix2 i j)
abbrev lab : Fin 512 → BitVec 32 := HostValue.lab m c

/-- What the first region leaves is the reference's distance matrix. -/
theorem distA (i j : Fin 512) : HostValue.dist (outsA m) c i j = D m c i j :=
  (congrFun (outsA_v6 m c) (ix2 i j)).trans ((DistValue.dist_final (Vin0 m) c i j).trans (HostValue.pre_dist m c i j))

theorem distA_fun : HostValue.dist (outsA m) c = D m c := funext fun a => funext fun b => distA m c a b

/-- The two masked matrices the second region reads are the specification's. -/
theorem amatA (i j : Fin 512) : SumValue.Am (Vin1 m) c (ix2 i j) = Triplet.amat (D m c) (lab m c) i j := by
  have h := HostValue.amat_eq m (outsA m) c i j
  rw [distA_fun] at h
  exact h
theorem cmatA (i k : Fin 512) : SumValue.Cm (Vin1 m) c (ix2 i k) = Triplet.cmat (D m c) (lab m c) i k := by
  have h := HostValue.cmat_eq m (outsA m) c i k
  rw [distA_fun] at h
  exact h

/-- The triples' contributions and their indicators, as functions of three row numbers. -/
abbrev tlF : Fin 512 → Fin 512 → Fin 512 → EReal := Triplet.tl (D m c) (lab m c)
abbrev indF : Fin 512 → Fin 512 → Fin 512 → EReal := fun i j k =>
  if Triplet.eps < Triplet.tl (D m c) (lab m c) i j k then (1 : EReal) else 0

/-- Block I of the sums: the sixteen bricks of its rows. -/
theorem sums_eq (I : Fin 8) (l : Fin 128) :
    HostValue.sums (outsAll m) c (ix3 I 0 l) = ∑ J : Fin 4, ∑ K : Fin 4, Cert.TripletSums.brick (tlF m c) I J K := by
  refine (congrFun (outsB_v24_0 m (d1At m) c) (ix3 I 0 l)).trans ?_
  refine (SumValue.sums_final (Vin1 m) c I l).trans ?_
  refine Finset.sum_congr rfl fun J _ => Finset.sum_congr rfl fun K _ => ?_
  unfold Cert.TripletSums.brick
  refine Finset.sum_congr rfl fun a _ => Finset.sum_congr rfl fun b _ => Finset.sum_congr rfl fun i _ => ?_
  rw [amatA, cmatA]
  rfl

/-- Block I of the counts. -/
theorem cnts_eq (I : Fin 8) (l : Fin 128) :
    HostValue.cnts (outsAll m) c (ix3 I 0 l) = ∑ J : Fin 4, ∑ K : Fin 4, Cert.TripletSums.brick (indF m c) I J K := by
  refine (congrFun (outsB_v24_1 m (d1At m) c) (ix3 I 0 l)).trans ?_
  refine (SumValue.counts_final (Vin1 m) c I l).trans ?_
  refine Finset.sum_congr rfl fun J _ => Finset.sum_congr rfl fun K _ => ?_
  unfold Cert.TripletSums.brick
  refine Finset.sum_congr rfl fun a _ => Finset.sum_congr rfl fun b _ => Finset.sum_congr rfl fun i _ => ?_
  rw [amatA, cmatA]
  rfl

/-- THE KERNEL'S RESULT: the loss of the reference's distance matrix and the labels. -/
theorem kernel_value : V9 (F := Ideal) m (outsAll m) c main_v32 = fun _ => Triplet.loss (D m c) (lab m c) := by
  refine (HostValue.tail m (outsAll m) c).trans ?_
  funext _
  have hs : ∑ I : Fin 8, HostValue.sums (outsAll m) c (ix3 I 0 0) = Triplet.total (D m c) (lab m c) := by
    unfold Triplet.total
    rw [← Cert.TripletSums.sum_brick (tlF m c)]
    exact Finset.sum_congr rfl fun I _ => sums_eq m c I 0
  have hc : ∑ I : Fin 8, HostValue.cnts (outsAll m) c (ix3 I 0 0) = Triplet.count (D m c) (lab m c) := by
    unfold Triplet.count
    rw [← Cert.TripletSums.sum_brick (indF m c)]
    exact Finset.sum_congr rfl fun I _ => cnts_eq m c I 0
  rw [hs, hc]
  rfl

end Cert.KernelIdeal.KValue

end
-- ==== Proof.RefRead.lean ====
/-
  The reference read at an index. Its last value is a quotient of two sums over all triples of rows; each summand,
  followed back through the broadcasts, is a function of two entries of the distance matrix and three labels.
-/
import proofs.«118121_j17016660426841_2_alg».proof.Proof.Gen.ReferenceIdeal.Read
import proofs.«118121_j17016660426841_2_alg».proof.Proof.TripletMath

noncomputable section

open scoped BigOperators

namespace Cert.ReferenceIdeal.RefValue

open Cert.ReferenceIdeal Cert.ReferenceIdeal.Read Idealize.ShloMosaic Idealize.ShloMosaic.ValueIdx

/-! ## A sum over a rank-3 index set is the triple sum over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Where each broadcast reads -/

variable (i j k : Fin 512)

theorem idx_9_11 : idx_main_v9 (idx_main_v11 (ix3 i j k)) = ix2 i j := by
  funext a; match a with | ⟨0, _⟩ => rfl | ⟨1, _⟩ => rfl
theorem idx_10_12 : idx_main_v10 (idx_main_v12 (ix3 i j k)) = ix2 i k := by
  funext a; match a with | ⟨0, _⟩ => rfl | ⟨1, _⟩ => rfl
theorem idx_22_24 : idx_main_v22 (idx_main_v24 (ix3 i j k)) = ix2 i j := by
  funext a; match a with | ⟨0, _⟩ => rfl | ⟨1, _⟩ => rfl
theorem idx_23_25 : idx_main_v23 (idx_main_v25 (ix3 i j k)) = ix2 i k := by
  funext a; match a with | ⟨0, _⟩ => rfl | ⟨1, _⟩ => rfl
theorem idx_27_28 : idx_main_v27 (idx_main_v28 (ix3 i j k)) = ix2 j k := by
  funext a; match a with | ⟨0, _⟩ => rfl | ⟨1, _⟩ => rfl
theorem idx_35_38 : idx_main_v35 (idx_main_v38 (ix3 i j k)) = ix2 i j := by
  funext a; match a with | ⟨0, _⟩ => rfl | ⟨1, _⟩ => rfl
theorem idx_36_39 : idx_main_v36 (idx_main_v39 (ix3 i j k)) = ix2 i k := by
  funext a; match a with | ⟨0, _⟩ => rfl | ⟨1, _⟩ => rfl
theorem idx_30_32 (a b : Fin 512) : idx_main_v30 (idx_main_v32 (ix2 a b)) = ix1 b := by
  funext d; match d with | ⟨0, _⟩ => rfl
theorem idx_31_33 (a b : Fin 512) : idx_main_v31 (idx_main_v33 (ix2 a b)) = ix1 a := by
  funext d; match d with | ⟨0, _⟩ => rfl

/-! ## The one-bit words -/

/-- "Rows `a` and `b` differ", as the reference computes it from two iotas. -/
theorem v21_read (a b : Fin 512) : val_main_v21 (F := Ideal) (ix2 a b) = Triplet.neBit a b := by
  rw [val_main_v21_apply, val_main_v20_apply, val_main_v19_apply, val_main_v16_apply, val_main_v18_apply, val_main_c_apply,
    val_main_v17_apply]
  rfl

/-- "Row `b` has row `a`'s label". -/
theorem v34_read (lab : (⟨S512, .i32⟩ : BufTy).Contents (Elt Ideal)) (a b : Fin 512) :
    val_main_v34 (F := Ideal) lab (ix2 a b) = IntOp.cmpi .eq (lab (ix1 b)) (lab (ix1 a)) := by
  rw [val_main_v34_apply, val_main_v32_apply, val_main_v30_apply, val_main_v33_apply, val_main_v31_apply, idx_30_32, idx_31_33]

/-! ## One summand -/

variable (x : (⟨S512x768, .f32⟩ : BufTy).Contents (Elt Ideal)) (lab : (⟨S512, .i32⟩ : BufTy).Contents (Elt Ideal))

/-- The distance matrix and the labels by coordinates. -/
abbrev dist : Fin 512 → Fin 512 → EReal := fun a b => val_main_v8 (F := Ideal) x (ix2 a b)
abbrev labels : Fin 512 → BitVec 32 := fun a => lab (ix1 a)

theorem v44_read : val_main_v44 (F := Ideal) x lab (ix3 i j k) = Triplet.refTerm (dist x) (labels lab) i j k := by
  rw [val_main_v44_apply, val_main_v43_apply, val_main_v15_apply, val_main_v13_apply, val_main_v11_apply, val_main_v9_apply,
    val_main_v12_apply, val_main_v10_apply, val_main_v14_apply, val_main_cst_1_apply, val_main_v42_apply, val_main_v41_apply,
    val_main_v29_apply, val_main_v26_apply, val_main_v24_apply, val_main_v22_apply, val_main_v25_apply, val_main_v23_apply,
    val_main_v28_apply, val_main_v27_apply, val_main_v40_apply, val_main_v38_apply, val_main_v35_apply, val_main_v39_apply,
    val_main_v37_apply, val_main_v36_apply, val_main_call1_v0_apply, val_main_call1_cst_apply,
    idx_9_11, idx_10_12, idx_22_24, idx_23_25, idx_27_28, idx_35_38, idx_36_39, v21_read, v21_read, v21_read, v34_read, v34_read]
  show max ((dist x i j - dist x i k + Triplet.half) * _) (Ideal.ofBits .f32 0x00000000#32) = _
  rw [Ideal.ofBits_zero_f32]
  rfl

theorem v47_read : val_main_v47 (F := Ideal) x lab (ix3 i j k) = Triplet.refInd (dist x) (labels lab) i j k := by
  rw [val_main_v47_apply, val_main_v46_apply, val_main_v45_apply, val_main_cst_2_apply, v44_read]
  rfl

/-! ## The quotient of the two sums -/

theorem v51_read : val_main_v51 (F := Ideal) x lab = fun _ =>
    Ideal.div (∑ i : Fin 512, ∑ j : Fin 512, ∑ k : Fin 512, Triplet.refTerm (dist x) (labels lab) i j k)
      ((∑ i : Fin 512, ∑ j : Fin 512, ∑ k : Fin 512, Triplet.refInd (dist x) (labels lab) i j k) + Triplet.eps) := by
  funext i0
  rw [val_main_v51_apply, val_main_v50_apply, val_main_v49_apply, val_main_v48_apply, val_main_cst_4_apply, val_main_cst_3_apply,
    val_main_cst_5_apply, sum_idx3, sum_idx3]
  simp only [v44_read, v47_read]
  show Ideal.div (Ideal.ofBits .f32 0x00000000#32 + _) ((Ideal.ofBits .f32 0x00000000#32 + _) + Triplet.eps) = _
  rw [Ideal.ofBits_zero_f32, zero_add, zero_add]

end Cert.ReferenceIdeal.RefValue

end
-- ==== Proof.RefSide.lean ====
/-
  The reference's value is the loss of its own distance matrix and the labels: its last value is the quotient of the
  two sums of masked terms, and for real inputs the distances are real and small beside the large numbers, where the
  masked term is the triple's contribution.
-/
import proofs.«118121_j17016660426841_2_alg».proof.Proof.RefRead
import proofs.«118121_j17016660426841_2_alg».proof.Proof.DistBound

noncomputable section

namespace Cert.ReferenceIdeal.RefValue

open Cert.ReferenceIdeal Cert.ReferenceIdeal.Read Idealize.ShloMosaic Idealize.ShloMosaic.ValueIdx

theorem ref_loss (x : (⟨S512x768, .f32⟩ : BufTy).Contents (Elt Ideal)) (lab : (⟨S512, .i32⟩ : BufTy).Contents (Elt Ideal))
    (hfin : ∀ i, ∃ r : ℝ, x i = (r : EReal)) :
    val_main_v51 (F := Ideal) x lab
      = fun _ => Triplet.loss (fun i j => val_main_v8 (F := Ideal) x (ix2 i j)) (fun i => lab (ix1 i)) := by
  rw [v51_read]
  funext _
  exact Triplet.loss_of_ref (dist x) (labels lab) (fun a b => dist_real_bounded x hfin a b)

end Cert.ReferenceIdeal.RefValue

end
-- ==== Proof.PreFinite.lean ====
/-
  The precondition says every entry of the float input is smaller than +∞ in absolute value. Over the extended
  reals the absolute value of an entry is the larger of it and its negative, which is +∞ at both infinities; so an
  entry whose absolute value is below +∞ is a real number.
-/
import proofs.«118121_j17016660426841_2_alg».proof.Pre_finite_inputs
import proofs.«118121_j17016660426841_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Pre_finite_inputs.PreValue

open Cert.Pre_finite_inputs Idealize.ShloMosaic

/-- The scalar shape has one index. -/
instance : Subsingleton S_.Idx := ⟨fun a b => funext fun d => d.elim0⟩

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

theorem finite_of_pre [hP : Cert.Pre_finite_inputs.Facts] (x : FVec Ideal S512x768 .f32) (lab : IVec S512 32)
    (h : Cert.Pre_finite_inputs.fn (F := Ideal) x lab = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  have hb : broadcastInDim S512x768 ![] Facts.bcast_S_S512x768 (constant (F := Ideal) S_ .f32 0x7F800000#32) i = (⊤ : EReal) := by
    rw [broadcastInDim_apply _ _ _ i ValueIdx.ix0 (fun a => a.elim0)]
    show Ideal.ofBits .f32 0x7F800000#32 = ⊤
    simp [Ideal.ofBits, Ideal.ieee]
  have hc : Ideal.cmp .olt (max (x i) (-(x i)))
      (broadcastInDim S512x768 ![] Facts.bcast_S_S512x768 (constant (F := Ideal) S_ .f32 0x7F800000#32) i) = 1#1 := hi
  rw [hb] at hc
  unfold Ideal.cmp at hc
  apply real_of_abs_lt_top
  by_contra hn
  simp [hn] at hc

end Cert.Pre_finite_inputs.PreValue

end
-- ==== Proof.lean ====
/-
  The batch-all triplet loss: a kernel program of two regions against its plain reference, over the extended reals.

  Both programs normalise the rows of the embedding matrix (each row divided by the larger of its norm and a
  threshold) and form the distance matrix D = 1 − X Xᵀ of the normalised rows; the kernel does so block by block in
  its first region, the two input windows reading one array. The reference weighs every triple (i, j, k) by
  max((D i j − D i k + 1/2) · mask, 0), the mask saying that i, j, k are distinct, i and j carry one label and k
  another. The kernel instead builds two matrices, a = D + 1/2 where i ≠ j carry one label and −10³⁰ elsewhere,
  c = D where the labels differ and +10³⁰ elsewhere, and its second region adds max(a i j − c i k, 0) brick by brick,
  eight row blocks each over sixteen grid points, together with the count of the terms above a threshold. Where the
  mask holds the two terms are one real number (sums of reals commute); where it fails the reference's is
  max(0, 0) and the kernel's is the positive part of a number below zero, since for finite inputs every distance is
  a real number of absolute value at most 769 (each normalised entry is at most 1 in absolute value) while the
  stand-ins are of size 10³⁰: this is where the finiteness of the inputs is used. The bricks tile the cube of triples,
  so the kernel's two sums are the reference's; the quotient is the same operation on both sides.

  The frames: the kernel programs' are their run — host lines, first region, host lines, second region, host lines —
  read at the two arguments; the reference's is its run with the result dropped. The idealization rewrote nothing.
-/
import proofs.«118121_j17016660426841_2_alg».proof.Defs
import proofs.«118121_j17016660426841_2_alg».proof.Proof.Gen.Kernel
import proofs.«118121_j17016660426841_2_alg».proof.Proof.Gen.KernelIdeal
import proofs.«118121_j17016660426841_2_alg».proof.Proof.Gen.ReferenceIdeal
import proofs.«118121_j17016660426841_2_alg».proof.Proof.Gen.ReferenceIdeal.Run
import proofs.«118121_j17016660426841_2_alg».proof.Proof.Gen.ReferenceIdeal.Read
import proofs.«118121_j17016660426841_2_alg».proof.Proof.Gen.Pre_finite_inputs
import proofs.«118121_j17016660426841_2_alg».proof.Proof.FrameK
import proofs.«118121_j17016660426841_2_alg».proof.Proof.Frame
import proofs.«118121_j17016660426841_2_alg».proof.Proof.KValue
import proofs.«118121_j17016660426841_2_alg».proof.Proof.RefSide
import proofs.«118121_j17016660426841_2_alg».proof.Proof.PreFinite

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of one distance matrix and one
    label vector: the kernel by its named run and the value of its last buffer, the reference by its run read back;
    the inputs' finiteness, which the reference's side needs, is the precondition decoded. -/
theorem algebraic : Cert.algebraic_KernelIdeal_ReferenceIdeal := by
  intro m ρ m' ρ' hpre hagree
  have hfin : ∀ c : Dev Cert.KernelIdeal.nD, ∀ i, ∃ r : ℝ,
      m ((c.tc : Thread Cert.KernelIdeal.nD Cert.KernelIdeal.τ).loc Cert.KernelIdeal.main_arg0) i = (r : EReal) :=
    fun c => Cert.Pre_finite_inputs.PreValue.finite_of_pre _ _ (hpre c)
  refine ⟨fun c => fun _ => Triplet.loss (Cert.KernelIdeal.KValue.D m c) (Cert.KernelIdeal.KValue.lab m c), ?_, ?_⟩
  · exact (θ_run Cert.KernelIdeal.defs _ _).mono (fun r h c =>
      ⟨(h c (Proc.devRef .tc Cert.KernelIdeal.main_v32) (Cert.KernelIdeal.Gen.mem_uc Cert.KernelIdeal.main_v32 (by decide))).trans
          (Cert.KernelIdeal.KValue.kernel_value m c),
        (h c (Proc.devRef .tc Cert.KernelIdeal.main_arg0) (Cert.KernelIdeal.Gen.mem_uc Cert.KernelIdeal.main_arg0 (by decide))).trans
          (Cert.KernelIdeal.Gen.V9_main_arg0 m (Cert.KernelIdeal.Gen.outsAll m) c),
        (h c (Proc.devRef .tc Cert.KernelIdeal.main_arg1) (Cert.KernelIdeal.Gen.mem_uc Cert.KernelIdeal.main_arg1 (by decide))).trans
          (Cert.KernelIdeal.Gen.V9_main_arg1 m (Cert.KernelIdeal.Gen.outsAll m) c)⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq,
      Cert.ReferenceIdeal.RefValue.ref_loss _ _ (by rw [(hagree c).1]; exact hfin c), (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
